-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S4x1x256x256 : Shape := ⟨4, ![4, 1, 256, 256]⟩
abbrev S1x256x1x1 : Shape := ⟨4, ![1, 256, 1, 1]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel
  bcast_S_S4x1x256x256 : S_.BroadcastsInDim S4x1x256x256 (![] : Fin 0 → Fin S4x1x256x256.rank)
  reducesTo_S4x1x256x256_S_d0_1_2_3 : S4x1x256x256.ReducesTo [0, 1, 2, 3] S_
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn {F : FTy → Type} [FloatOps F] (main_arg0 : FVec F S4x256x256x256 .f32) (main_arg1 : FVec F S4x1x256x256 .f32) (main_arg2 : FVec F S1x256x1x1 .f32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  let main_v4 : FVec F S4x1x256x256 .f32 := Host.absf main_arg1
  let main_cst_0 : FVec F S_ .f32 := constant S_ .f32 0x7F800000#32
  let main_v5 : FVec F S4x1x256x256 .f32 := broadcastInDim S4x1x256x256 ![] bcast_S_S4x1x256x256 main_cst_0
  let main_v6 : IVec S4x1x256x256 1 := cmpf .olt main_v4 main_v5
  let main_c_1 : IVec S_ 1 := constantI S_ 1 1#1
  let main_v7 : IVec S_ 1 := (fun x v => Host.reduce IntOp.andi x v reducesTo_S4x1x256x256_S_d0_1_2_3 h_S_) main_v6 main_c_1
  let main_v8 : IVec S_ 1 := andi main_v3 main_v7
  let main_v9 : FVec F S1x256x1x1 .f32 := Host.absf main_arg2
  let main_cst_2 : FVec F S_ .f32 := constant S_ .f32 0x7F800000#32
  let main_v10 : FVec F S1x256x1x1 .f32 := broadcastInDim S1x256x1x1 ![] bcast_S_S1x256x1x1 main_cst_2
  let main_v11 : IVec S1x256x1x1 1 := cmpf .olt main_v9 main_v10
  let main_c_3 : IVec S_ 1 := constantI S_ 1 1#1
  let main_v12 : IVec S_ 1 := (fun x v => Host.reduce IntOp.andi x v reducesTo_S1x256x1x1_S_d0_1_2_3 h_S_) main_v11 main_c_3
  let main_v13 : IVec S_ 1 := andi main_v8 main_v12
  main_v13
-- ==== Kernel.lean ====
abbrev S4x256x256x256 : Shape := ⟨4, ![4, 256, 256, 256]⟩
abbrev S4x1x256x256 : Shape := ⟨4, ![4, 1, 256, 256]⟩
abbrev S1x256x1x1 : Shape := ⟨4, ![1, 256, 1, 1]⟩
abbrev S4x1x256 : Shape := ⟨3, ![4, 1, 256]⟩
abbrev S1x256x16x256 : Shape := ⟨4, ![1, 256, 16, 256]⟩
abbrev S1x1x16x256 : Shape := ⟨4, ![1, 1, 16, 256]⟩
abbrev S1x1x256 : Shape := ⟨3, ![1, 1, 256]⟩
abbrev S1x256 : Shape := ⟨2, ![1, 256]⟩
abbrev S1x1 : Shape := ⟨2, ![1, 1]⟩
abbrev S16x256 : Shape := ⟨2, ![16, 256]⟩
abbrev S256x16x256 : Shape := ⟨3, ![256, 16, 256]⟩
abbrev S1x16x256 : Shape := ⟨3, ![1, 16, 256]⟩
abbrev S256x16 : Shape := ⟨2, ![256, 16]⟩
abbrev S256 : Shape := ⟨1, ![256]⟩
abbrev S16 : Shape := ⟨1, ![16]⟩
abbrev S1x16 : Shape := ⟨2, ![1, 16]⟩
abbrev S1 : Shape := ⟨1, ![1]⟩
abbrev S4x256 : Shape := ⟨2, ![4, 256]⟩
abbrev S_ : Shape := ⟨0, ![]⟩
abbrev S4x256x1x1 : Shape := ⟨4, ![4, 256, 1, 1]⟩

abbrev nBuf : Space → Nat
  | .hbm => 13
  | .vmem => 9
  | .smem => 0
  | _ => 0

abbrev bufTy : (tb : Table) → Fin (tcTables nBuf tb) → BufTy
  | .hbm, ⟨0, _⟩ => ⟨S4x256x256x256, .f32⟩
  | .hbm, ⟨1, _⟩ => ⟨S4x1x256x256, .f32⟩
  | .hbm, ⟨2, _⟩ => ⟨S1x256x1x1, .f32⟩
  | .hbm, ⟨3, _⟩ => ⟨S4x1x256, .f32⟩
  | .hbm, ⟨4, _⟩ => ⟨S4x256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S1x256, .f32⟩
  | .hbm, ⟨10, _⟩ => ⟨S4x256, .f32⟩
  | .hbm, ⟨11, _⟩ => ⟨S4x256, .f32⟩
  | .hbm, ⟨12, _⟩ => ⟨S4x256x1x1, .f32⟩
  | .local _ .vmem, ⟨0, _⟩ => ⟨S1x256x16x256, .f32⟩
  | .local _ .vmem, ⟨1, _⟩ => ⟨S1x256x16x256, .f32⟩
  | .local _ .vmem, ⟨2, _⟩ => ⟨S1x1x16x256, .f32⟩
  | .local _ .vmem, ⟨3, _⟩ => ⟨S1x1x16x256, .f32⟩
  | .local _ .vmem, ⟨4, _⟩ => ⟨S1x1x256, .f32⟩
  | .local _ .vmem, ⟨5, _⟩ => ⟨S1x1x256, .f32⟩
  | .local _ .vmem, ⟨6, _⟩ => ⟨S1x256, .f32⟩
  | .local _ .vmem, ⟨7, _⟩ => ⟨S1x256, .f32⟩
  | .local _ .vmem, ⟨8, _⟩ => ⟨S1x1, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_26 : BitVec 32 := 0#32
  let v45 : BitVec 1 := Scalar.cmpi .ne v44 c0_i32_26
  v45

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x16x256_S1x1x16x256_0_0_0_0 : ∀ a, (![0, 0, 0, 0] : Fin 4 → Nat) a + S1x1x16x256.size a ≤ S1x1x16x256.size a
  h_S1x1x16x256 : 0 < S1x1x16x256.numel
  shapeCasts_S1x1x16x256_S16x256 : S1x1x16x256.ShapeCasts S16x256
  natLt_1_32 : 1 < 32
  inb_S1x256x16x256_S1x256x16x256_0_0_0_0 : ∀ a, (![0, 0, 0, 0] : Fin 4 → Nat) a + S1x256x16x256.size a ≤ S1x256x16x256.size a
  h_S1x256x16x256 : 0 < S1x256x16x256.numel
  shapeCasts_S1x256x16x256_S256x16x256 : S1x256x16x256.ShapeCasts S256x16x256
  shapeCasts_S16x256_S1x16x256 : S16x256.ShapeCasts S1x16x256
  shapeCasts_S1x16x256_S1x16x256 : S1x16x256.ShapeCasts S1x16x256
  broadcasts_S1x16x256_S256x16x256 : S1x16x256.Broadcasts S256x16x256
  reduces_S256x16x256_S256x16 : S256x16x256.Reduces [2] S256x16
  reduces_S256x16_S256 : S256x16.Reduces [1] S256
  reduces_S16x256_S16 : S16x256.Reduces [1] S16
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  shapeCasts_S256_S1x256 : S256.ShapeCasts S1x256
  broadcasts_S1x1_S1x256 : S1x1.Broadcasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S4x1x256_S4x256 : S4x1x256.ShapeCasts S4x256
  shapeCasts_S1x256x1x1_S256 : S1x256x1x1.ShapeCasts S256
  bcast_S_S256 : S_.BroadcastsInDim S256 (![] : Fin 0 → Fin S256.rank)
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  shapeCasts_S4x256_S4x256x1x1 : S4x256.ShapeCasts S4x256x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16x256.size a ≤ S4x256x256x256.size a
  hwx0_0 : ∀ i : grid0.Coords, EltTy.bits .f32 = 32 ∨ (Rect.block (s := S4x256x256x256) S1x256x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16x256.size a ≤ S4x1x256x256.size a
  hwx0_1 : ∀ i : grid0.Coords, EltTy.bits .f32 = 32 ∨ (Rect.block (s := S4x1x256x256) S1x1x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x256.size a
  hwx0_2 : ∀ i : grid0.Coords, EltTy.bits .f32 = 32 ∨ (Rect.block (s := S4x1x256) S1x1x256.size (cc0_transform_2 i) (hinb0_2 i)).WholeWords (EltTy.packing .f32)

variable [Facts₀]

abbrev win0_0 : Pipeline.Window sig grid0 :=
  Pipeline.Window.ofSpec (Memref.whole main_arg0) S1x256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x256x256x256 : Shape := ⟨4, ![4, 256, 256, 256]⟩
abbrev S4x1x256x256 : Shape := ⟨4, ![4, 1, 256, 256]⟩
abbrev S1x256x1x1 : Shape := ⟨4, ![1, 256, 1, 1]⟩
abbrev S_ : Shape := ⟨0, ![]⟩
abbrev S4x1 : Shape := ⟨2, ![4, 1]⟩
abbrev S4x256 : Shape := ⟨2, ![4, 256]⟩
abbrev S4x256x1x1 : Shape := ⟨4, ![4, 256, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S4x1x256x256, .f32⟩
  | .hbm, ⟨2, _⟩ => ⟨S1x256x1x1, .f32⟩
  | .hbm, ⟨3, _⟩ => ⟨S_, .f32⟩
  | .hbm, ⟨4, _⟩ => ⟨S4x1x256x256, .f32⟩
  | .hbm, ⟨5, _⟩ => ⟨S4x1x256x256, .i1⟩
  | .hbm, ⟨6, _⟩ => ⟨S4x1x256x256, .f32⟩
  | .hbm, ⟨7, _⟩ => ⟨S_, .f32⟩
  | .hbm, ⟨8, _⟩ => ⟨S4x1, .f32⟩
  | .hbm, ⟨9, _⟩ => ⟨S4x256x256x256, .f32⟩
  | .hbm, ⟨10, _⟩ => ⟨S4x256x256x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S4x256x1x1, .f32⟩
  | .hbm, ⟨16, _⟩ => ⟨S4x256x256x256, .f32⟩
  | .hbm, ⟨17, _⟩ => ⟨S4x256x256x256, .f32⟩
  | .hbm, ⟨18, _⟩ => ⟨S4x256x256x256, .f32⟩
  | .hbm, ⟨19, _⟩ => ⟨S4x256x256x256, .f32⟩
  | .hbm, ⟨20, _⟩ => ⟨S4x256x256x256, .f32⟩
  | .hbm, ⟨21, _⟩ => ⟨S_, .f32⟩
  | .hbm, ⟨22, _⟩ => ⟨S4x256, .f32⟩
  | .hbm, ⟨23, _⟩ => ⟨S_, .f32⟩
  | .hbm, ⟨24, _⟩ => ⟨S4x1, .f32⟩
  | .hbm, ⟨25, _⟩ => ⟨S4x1, .f32⟩
  | .hbm, ⟨26, _⟩ => ⟨S4x256, .f32⟩
  | .hbm, ⟨27, _⟩ => ⟨S4x256, .f32⟩
  | .hbm, ⟨28, _⟩ => ⟨S4x256, .f32⟩
  | .hbm, ⟨29, _⟩ => ⟨S4x256x1x1, .f32⟩
  | .hbm, ⟨30, _⟩ => ⟨S_, .f32⟩
  | .hbm, ⟨31, _⟩ => ⟨S1x256x1x1, .f32⟩
  | .hbm, ⟨32, _⟩ => ⟨S1x256x1x1, .f32⟩
  | .hbm, ⟨33, _⟩ => ⟨S4x256x1x1, .f32⟩
  | .hbm, ⟨34, _⟩ => ⟨S4x256x1x1, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S_S4x1x256x256 : S_.BroadcastsInDim S4x1x256x256 (![] : Fin 0 → Fin S4x1x256x256.rank)
  reducesTo_S4x1x256x256_S4x1_d2_3 : S4x1x256x256.ReducesTo [2, 3] S4x1
  h_S_ : 0 < S_.numel
  bcast_S4x1x256x256_S4x256x256x256_0_1_2_3 : S4x1x256x256.BroadcastsInDim S4x256x256x256 (![0, 1, 2, 3] : Fin 4 → Fin S4x256x256x256.rank)
  reducesTo_S4x256x256x256_S4x256_d2_3 : S4x256x256x256.ReducesTo [2, 3] S4x256
  bcast_S4x1_S4x256_0_1 : S4x1.BroadcastsInDim S4x256 (![0, 1] : Fin 2 → Fin S4x256.rank)
  bcast_S4x256_S4x256x1x1_0_1 : S4x256.BroadcastsInDim S4x256x1x1 (![0, 1] : Fin 2 → Fin S4x256x1x1.rank)
  bcast_S4x256x1x1_S4x256x256x256_0_1_2_3 : S4x256x1x1.BroadcastsInDim S4x256x256x256 (![0, 1, 2, 3] : Fin 4 → Fin S4x256x256x256.rank)
  bcast_S_S4x1 : S_.BroadcastsInDim S4x1 (![] : Fin 0 → Fin S4x1.rank)
  bcast_S_S1x256x1x1 : S_.BroadcastsInDim S1x256x1x1 (![] : Fin 0 → Fin S1x256x1x1.rank)
  bcast_S1x256x1x1_S4x256x1x1_0_1_2_3 : S1x256x1x1.BroadcastsInDim S4x256x1x1 (![0, 1, 2, 3] : Fin 4 → Fin S4x256x1x1.rank)

variable [Facts₀]

class Facts : Prop extends Facts₀ where

variable [Facts]
-- ==== Proof.Pieces.lean ====
import proofs.«104190_j11476152615311_2_alg».proof.Proof.Gen.KernelIdeal.Frame
import Idealize.ShloMosaic.Lib.Pipeline.Value
import Idealize.ShloMosaic.Lib.Tactic

/-!
# What one grid point leaves in the three accumulators and in the output block

The body keeps three accumulators across the sixteen row tiles of a sample: the sum of the kept features per
channel, the sum of their squares, and the number of kept pixels. At a sample's first tile it stores zeros and
adds the tile's partial sums to them; at the other tiles it adds the tile's partial sums to what the tile before
left; at the last tile it also stores the output block, computed from the accumulators it has just updated.
Each statement below names what one store leaves as the body's own arithmetic (the payload of that store) of the
tile's two input blocks and of the accumulators' previous contents.
-/

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## A sample's first tile: the accumulators restart from zero -/

theorem sout0_A_0_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : cond0_0 i) (hc1 : ¬cond0_1 i)
    (x0 : Vec F S1x256x16x256 .f32) (x1 : Vec F S1x1x16x256 .f32) :
    sout0_A_0 c i a2 h2 a3 h3 a4 h4 a5 h5 a6 h6 a7 h7 hc0 hc1 x0 x1 = k0_pay11 x1 x0 (k0_pay4 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1x256) hz2, View.readCov_unit_zero (S := S1x256) _ hz2]
  simp only [View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

theorem sout0_A_1_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : cond0_0 i) (hc1 : ¬cond0_1 i)
    (x0 : Vec F S1x256x16x256 .f32) (x1 : Vec F S1x1x16x256 .f32) :
    sout0_A_1 c i a2 h2 a3 h3 a4 h4 a5 h5 a6 h6 a7 h7 hc0 hc1 x0 x1 = k0_pay1 (k0_pay5 (F := F)) (k0_pay12 x1 x0) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1x256) hz2, View.readCov_unit_zero (S := S1x256) _ hz2]
  simp only [View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

theorem sout0_A_2_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : cond0_0 i) (hc1 : ¬cond0_1 i)
    (x0 : Vec F S1x256x16x256 .f32) (x1 : Vec F S1x1x16x256 .f32) :
    sout0_A_2 c i a2 h2 a3 h3 a4 h4 a5 h5 a6 h6 a7 h7 hc0 hc1 x0 x1 = k0_pay2 (k0_pay10 x1) (k0_pay6 (F := F)) := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

/-! ## A middle tile: the accumulators continue from the tile before -/

theorem sout0_B_0_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : ¬cond0_0 i) (hc1 : ¬cond0_1 i)
    (x0 : Vec F S1x256x16x256 .f32) (x1 : Vec F S1x1x16x256 .f32) (xs0 xs1 : Vec F S1x256 .f32) (xs2 : Vec F S1x1 .f32) :
    sout0_B_0 c i a2 h2 a3 h3 a4 h4 a5 h5 a6 h6 a7 h7 hc0 hc1 x0 x1 xs0 xs1 xs2 = k0_pay11 x1 x0 xs0 := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

theorem sout0_B_1_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : ¬cond0_0 i) (hc1 : ¬cond0_1 i)
    (x0 : Vec F S1x256x16x256 .f32) (x1 : Vec F S1x1x16x256 .f32) (xs0 xs1 : Vec F S1x256 .f32) (xs2 : Vec F S1x1 .f32) :
    sout0_B_1 c i a2 h2 a3 h3 a4 h4 a5 h5 a6 h6 a7 h7 hc0 hc1 x0 x1 xs0 xs1 xs2 = k0_pay1 xs1 (k0_pay12 x1 x0) := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

theorem sout0_B_2_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : ¬cond0_0 i) (hc1 : ¬cond0_1 i)
    (x0 : Vec F S1x256x16x256 .f32) (x1 : Vec F S1x1x16x256 .f32) (xs0 xs1 : Vec F S1x256 .f32) (xs2 : Vec F S1x1 .f32) :
    sout0_B_2 c i a2 h2 a3 h3 a4 h4 a5 h5 a6 h6 a7 h7 hc0 hc1 x0 x1 xs0 xs1 xs2 = k0_pay2 (k0_pay10 x1) xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero hz2]
  simp only [View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

/-! ## A sample's last tile: the same accumulation, then the output block from the updated accumulators -/

theorem sout0_C_0_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : ¬cond0_0 i) (hc1 : cond0_1 i)
    (x0 : Vec F S1x256x16x256 .f32) (x1 : Vec F S1x1x16x256 .f32) (xs0 xs1 : Vec F S1x256 .f32) (xs2 : Vec F S1x1 .f32) :
    sout0_C_0 c i a2 h2 a3 h3 a4 h4 a5 h5 a6 h6 a7 h7 hc0 hc1 x0 x1 xs0 xs1 xs2 = k0_pay11 x1 x0 xs0 := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

theorem sout0_C_1_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : ¬cond0_0 i) (hc1 : cond0_1 i)
    (x0 : Vec F S1x256x16x256 .f32) (x1 : Vec F S1x1x16x256 .f32) (xs0 xs1 : Vec F S1x256 .f32) (xs2 : Vec F S1x1 .f32) :
    sout0_C_1 c i a2 h2 a3 h3 a4 h4 a5 h5 a6 h6 a7 h7 hc0 hc1 x0 x1 xs0 xs1 xs2 = k0_pay1 xs1 (k0_pay12 x1 x0) := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

theorem sout0_C_2_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : ¬cond0_0 i) (hc1 : cond0_1 i)
    (x0 : Vec F S1x256x16x256 .f32) (x1 : Vec F S1x1x16x256 .f32) (xs0 xs1 : Vec F S1x256 .f32) (xs2 : Vec F S1x1 .f32) :
    sout0_C_2 c i a2 h2 a3 h3 a4 h4 a5 h5 a6 h6 a7 h7 hc0 hc1 x0 x1 xs0 xs1 xs2 = k0_pay2 (k0_pay10 x1) xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero hz2]
  simp only [View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

theorem out0_C_2_eq (c : Dev nD) (i : grid0.Coords) (a2 : Memref sig .tc .vmem S1x256x16x256 .f32) (h2 : a2.IsWhole) (a3 : Memref sig .tc .vmem S1x1x16x256 .f32) (h3 : a3.IsWhole) (a4 : Memref sig .tc .vmem S1x1x256 .f32) (h4 : a4.IsWhole) (a5 : Memref sig .tc .vmem S1x256 .f32) (h5 : a5.IsWhole) (a6 : Memref sig .tc .vmem S1x256 .f32) (h6 : a6.IsWhole) (a7 : Memref sig .tc .vmem S1x1 .f32) (h7 : a7.IsWhole) (hc0 : ¬cond0_0 i) (hc1 : cond0_1 i)
    (x0 : Vec F S1x256x16x256 .f32) (x1 : Vec F S1x1x16x256 .f32) (xs0 xs1 : Vec F S1x256 .f32) (xs2 : Vec F S1x1 .f32) :
    out0_C_2 c i a2 h2 a3 h3 a4 h4 a5 h5 a6 h6 a7 h7 hc0 hc1 x0 x1 xs0 xs1 xs2
      = k0_pay3 (k0_pay2 (k0_pay10 x1) xs2) (k0_pay11 x1 x0 xs0) (k0_pay1 xs1 (k0_pay12 x1 x0)) := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  rw [View.canon_unit_zero hz3]
  simp only [View.readCov_unit_zero (S := S1x1) _ hz2, View.readCov_unit_zero (S := S1x256) _ hz2, View.readAt_eq_ld, h2.read_unread, h3.read_unread, h5.read_unread, h6.read_unread, h7.read_unread, View.ld_unit_zero (S := S1x256x16x256) hz4, View.ld_unit_zero (S := S1x1x16x256) hz4, View.ld_unit_zero (S := S1x256) hz2, View.ld_unit_zero (S := S1x1) hz2]

end Cert.KernelIdeal.Pieces

end
-- ==== Proof.Spec.lean ====
import Idealize.ShloMosaic.PureOps.Ideal
import Idealize.ShloMosaic.Lib.ValueIdx

/-!
# The masked standard deviation as a function of the three argument arrays

For a feature array `A` of shape [4, 256, 256, 256] (sample, channel, row, column), a mask `M` of shape
[4, 1, 256, 256] and a per-channel floor `T` of shape [1, 256, 1, 1], a pixel of sample `b` is *kept* when its
mask value is at most one half. With `n` the number of kept pixels of the sample, `s` the sum of the kept
features of a channel and `μ = s / n`, the result at (sample, channel) is

  max (√(dev / (n - 1))) (10⁻⁶ + T channel),

where the sum of squared deviations `dev` is written in two ways: in ONE PASS, from the sum of squares,
`∑ a·(a·k) - (n·μ)·μ`, and in TWO PASSES, `∑ ((a - μ)·(a - μ))·k`. Everything is over the extended reals,
with the conventions of the ideal float instance for a division by zero and a root of a negative number.
-/

noncomputable section

open Idealize.ShloMosaic Idealize.ShloMosaic.ValueIdx

namespace Cert.MaskedStd

/-- The feature array's shape, the mask's, the floor's and the result's. -/
abbrev SA : Shape := ⟨4, ![4, 256, 256, 256]⟩
abbrev SM : Shape := ⟨4, ![4, 1, 256, 256]⟩
abbrev ST : Shape := ⟨4, ![1, 256, 1, 1]⟩
abbrev SO : Shape := ⟨4, ![4, 256, 1, 1]⟩

/-- The weight of a pixel whose mask value is `x`: one when `x ≤ 1/2` (the pixel is kept), else zero. -/
def keep (x : EReal) : EReal := if x ≤ Ideal.ofBits .f32 0x3F000000#32 then 1 else 0

theorem keep_eq_zero_or_one (x : EReal) : keep x = 0 ∨ keep x = 1 := by
  unfold keep; split
  · exact Or.inr rfl
  · exact Or.inl rfl

section
variable (A : SA.Idx → EReal) (M : SM.Idx → EReal) (T : ST.Idx → EReal)

/-- The weight of pixel `p` = (row, column) of sample `b`. -/
def kept (b : Fin 4) (p : Fin 256 × Fin 256) : EReal := keep (M (ix4 b (0 : Fin 1) p.1 p.2))

/-- The feature of channel `ch` at pixel `p` of sample `b`. -/
def feat (b : Fin 4) (ch : Fin 256) (p : Fin 256 × Fin 256) : EReal := A (ix4 b ch p.1 p.2)

/-- The number of kept pixels of sample `b`. -/
def cnt (b : Fin 4) : EReal := ∑ p : Fin 256 × Fin 256, kept M b p

/-- The sum of the kept features of channel `ch` of sample `b`. -/
def tot (b : Fin 4) (ch : Fin 256) : EReal := ∑ p : Fin 256 × Fin 256, feat A b ch p * kept M b p

/-- The sum of the squares of the kept features. -/
def totSq (b : Fin 4) (ch : Fin 256) : EReal :=
  ∑ p : Fin 256 × Fin 256, feat A b ch p * (feat A b ch p * kept M b p)

/-- The mean of the kept features. -/
def mean (b : Fin 4) (ch : Fin 256) : EReal := Ideal.div (tot A M b ch) (cnt M b)

/-- The sum of squared deviations in one pass: the sum of squares less `n·μ·μ`. -/
def devOne (b : Fin 4) (ch : Fin 256) : EReal :=
  totSq A M b ch - (cnt M b * mean A M b ch) * mean A M b ch

/-- The sum of squared deviations in two passes: the kept squared distances from the mean. -/
def devTwo (b : Fin 4) (ch : Fin 256) : EReal :=
  ∑ p : Fin 256 × Fin 256, ((feat A b ch p - mean A M b ch) * (feat A b ch p - mean A M b ch)) * kept M b p

/-- The unbiased standard deviation from a sum of squared deviations: `√(dev / (n - 1))`. -/
def stdOf (b : Fin 4) (dev : EReal) : EReal :=
  Ideal.sqrt (Ideal.div dev (cnt M b - Ideal.ofBits .f32 0x3F800000#32))

/-- The floor of channel `ch`: the word of 10⁻⁶ plus the channel's parameter. -/
def lowest (ch : Fin 256) : EReal :=
  Ideal.ofBits .f32 0x358637BD#32 + T (ix4 (0 : Fin 1) ch (0 : Fin 1) (0 : Fin 1))

/-- The result at (sample, channel), from the one-pass deviations. -/
def onePassAt (b : Fin 4) (ch : Fin 256) : EReal := max (stdOf M b (devOne A M b ch)) (lowest T ch)

/-- The result at (sample, channel), from the two-pass deviations. -/
def twoPassAt (b : Fin 4) (ch : Fin 256) : EReal := max (stdOf M b (devTwo A M b ch)) (lowest T ch)

/-- The result array [4, 256, 1, 1], one-pass form. -/
def onePass (i : SO.Idx) : EReal := onePassAt A M T ⟨(i 0).val, (i 0).isLt⟩ ⟨(i 1).val, (i 1).isLt⟩

/-- The result array [4, 256, 1, 1], two-pass form. -/
def twoPass (i : SO.Idx) : EReal := twoPassAt A M T ⟨(i 0).val, (i 0).isLt⟩ ⟨(i 1).val, (i 1).isLt⟩

end

end Cert.MaskedStd

end
-- ==== Proof.Layout.lean ====
import Idealize.ShloMosaic.Lib.Pipeline.Value
import Idealize.ShloMosaic.Lib.ValueIdx
import Idealize.ShloMosaic.Lib.ValueLayout

/-!
# Three layout operations read at an index

Two leading unit axes dropped by a shape cast, one row block repeated along a new leading axis, and a single
element repeated along a row: each reads, at an index written by its coordinates, the operand at the
index with the unit coordinates put back.
-/

noncomputable section

open Idealize.ShloMosaic Idealize.ShloMosaic.ValueIdx

namespace Cert.MaskedStd.Layout

variable {α : Type}

/-- A `[1, 1, a, b]` array cast to `[a, b]` reads, at `(i, j)`, the operand at `(0, 0, i, j)`: the two indices
    have the same row-major position. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A `[1, a, b]` array broadcast to `[c, a, b]` reads, at `(k, i, j)`, the operand's one block at `(i, j)`. -/
theorem broadcastTo_1ab_cab_apply {c a b : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1]` array broadcast to `[1, b]` reads, at every index, the operand's one element. -/
theorem broadcastTo_11_1b_apply {b : ℕ} (v : (⟨2, ![1, 1]⟩ : Shape).Idx → α)
    (h : (⟨2, ![1, 1]⟩ : Shape).Broadcasts ⟨2, ![1, b]⟩) (u : Fin 1) (j : Fin b) :
    broadcastTo ⟨2, ![1, b]⟩ v h (ix2 u j) = v (ix2 (0 : Fin 1) (0 : Fin 1)) := by
  refine broadcastTo_apply v h (ix2 u j) (ix2 (0 : Fin 1) (0 : Fin 1)) fun ax => ?_
  match ax with
  | ⟨0, _⟩ => rfl
  | ⟨1, _⟩ => rfl

end Cert.MaskedStd.Layout

end
-- ==== Proof.Payload.lean ====
import proofs.«104190_j11476152615311_2_alg».proof.Proof.Gen.KernelIdeal.Skeleton
import proofs.«104190_j11476152615311_2_alg».proof.Proof.Spec
import proofs.«104190_j11476152615311_2_alg».proof.Proof.Layout
import Idealize.ShloMosaic.PureOps.Ideal.Laws
import Idealize.ShloMosaic.Lib.Pipeline.Value
import Idealize.ShloMosaic.Lib.ValueIdx
import Idealize.ShloMosaic.Lib.ValueLayout

/-!
# The body's arithmetic read at an index, on the extended reals

One row tile is a block `x0` of features [1, 256, 16, 256] (channel, row of the tile, column) and a block `x1` of
mask values [1, 1, 16, 256]. The weight of pixel (r, w) of the tile is `keep (x1 (0, 0, r, w))`. The tile's
partial sums are, per channel, the double sum over rows and columns of feature × weight and of
feature × (feature × weight), and the double sum of the weights; the accumulators add these to their previous
contents, entry by entry; the output block is `√((ss - (n·(s/n))·(s/n)) / (n - 1))` of the accumulators.
-/

noncomputable section

open Idealize.ShloMosaic Idealize.ShloMosaic.ValueIdx

namespace Cert.KernelIdeal.Payload

open Cert.KernelIdeal Cert.KernelIdeal.Gen Cert.MaskedStd Cert.MaskedStd.Layout

/-- The body's weight of a mask value — compare with one half, widen the bit, convert the integer — is `keep`. -/
theorem keep_word (a : EReal) :
    FloatOps.sitofp (F := Ideal) .f32 ((FloatOps.cmpf (F := Ideal) (φ := .f32) .ole a (Scalar.ofBits (F := Ideal) .f32 0x3F000000#32)).setWidth 32) = keep a := by
  show (((((Ideal.cmp .ole a (Ideal.ofBits .f32 0x3F000000#32)).setWidth 32).toInt : ℤ) : ℝ) : EReal) = keep a
  unfold keep Ideal.cmp
  by_cases h : a ≤ Ideal.ofBits .f32 0x3F000000#32
  · simp [h]
  · simp [h]

/-- The weights of the tile, at pixel (r, w). -/
theorem pay7_apply (x1 : Vec Ideal S1x1x16x256 .f32) (r : Fin 16) (w : Fin 256) :
    k0_pay7 (F := Ideal) x1 (ix2 r w) = keep (x1 (ix4 (0 : Fin 1) (0 : Fin 1) r w)) := by
  unfold k0_pay7
  show FloatOps.sitofp (F := Ideal) .f32 ((FloatOps.cmpf (F := Ideal) (φ := .f32) .ole
      (shapeCast S16x256 x1 shapeCasts_S1x1x16x256_S16x256 (ix2 r w)) (Scalar.ofBits (F := Ideal) .f32 0x3F000000#32)).setWidth 32) = _
  rw [shapeCast_11ab_ab_apply x1 shapeCasts_S1x1x16x256_S16x256 r w]
  exact keep_word _

/-- The tile's features, at (channel, row, column). -/
theorem pay8_apply (x0 : Vec Ideal S1x256x16x256 .f32) (ch : Fin 256) (r : Fin 16) (w : Fin 256) :
    k0_pay8 (F := Ideal) x0 (ix3 ch r w) = x0 (ix4 (0 : Fin 1) ch r w) := by
  unfold k0_pay8
  exact shapeCast_1abc_abc_apply x0 shapeCasts_S1x256x16x256_S256x16x256 ch r w

/-- Feature × weight, at (channel, row, column): the weights repeated over the channels. -/
theorem pay9_apply (x1 : Vec Ideal S1x1x16x256 .f32) (x0 : Vec Ideal S1x256x16x256 .f32) (ch : Fin 256) (r : Fin 16) (w : Fin 256) :
    k0_pay9 (F := Ideal) x1 x0 (ix3 ch r w) = x0 (ix4 (0 : Fin 1) ch r w) * keep (x1 (ix4 (0 : Fin 1) (0 : Fin 1) r w)) := by
  unfold k0_pay9
  show k0_pay8 (F := Ideal) x0 (ix3 ch r w) * broadcastTo S256x16x256 (shapeCast S1x16x256 (shapeCast S1x16x256 (k0_pay7 (F := Ideal) x1) shapeCasts_S16x256_S1x16x256) shapeCasts_S1x16x256_S1x16x256) broadcasts_S1x16x256_S256x16x256 (ix3 ch r w) = _
  rw [pay8_apply, broadcastTo_1ab_cab_apply _ broadcasts_S1x16x256_S256x16x256 ch r w, shapeCast_self,
    shapeCast_ab_1ab_apply _ shapeCasts_S16x256_S1x16x256 (0 : Fin 1) r w, pay7_apply]

/-- A sum over the last axis of a [256, 16, 256] vector, at (channel, row). -/
theorem lane_sum3 (v : FVec Ideal S256x16x256 .f32) (hr : S256x16x256.Reduces [2] S256x16) (hφ : FKind.Formats .f32)
    (hacc : (0x00000000#32 : BitVec 32) = 0x00000000#32) (ch : Fin 256) (r : Fin 16) :
    multiReduction .add [2] S256x16 v 0x00000000#32 hr hφ hacc (ix2 ch r) = ∑ w : Fin 256, v (ix3 ch r w) :=
  (Ideal.multiReduction_add_single v 0x00000000#32 hr hφ hacc (ix2 ch r)).trans
    (Finset.sum_congr rfl fun w _ => congrArg v (funext fun a => by
      match a with | ⟨0, _⟩ => rfl | ⟨1, _⟩ => rfl | ⟨2, _⟩ => rfl))

/-- A sum over the last axis of a [256, 16] vector, at a channel. -/
theorem lane_sum2 (v : FVec Ideal S256x16 .f32) (hr : S256x16.Reduces [1] S256) (hφ : FKind.Formats .f32)
    (hacc : (0x00000000#32 : BitVec 32) = 0x00000000#32) (ch : Fin 256) :
    multiReduction .add [1] S256 v 0x00000000#32 hr hφ hacc (ix1 ch) = ∑ r : Fin 16, v (ix2 ch r) :=
  (Ideal.multiReduction_add_single v 0x00000000#32 hr hφ hacc (ix1 ch)).trans
    (Finset.sum_congr rfl fun r _ => congrArg v (funext fun a => by
      match a with | ⟨0, _⟩ => rfl | ⟨1, _⟩ => rfl))

/-- A sum over the columns of a [16, 256] vector, at a row. -/
theorem lane_sum_rows (v : FVec Ideal S16x256 .f32) (hr : S16x256.Reduces [1] S16) (hφ : FKind.Formats .f32)
    (hacc : (0x00000000#32 : BitVec 32) = 0x00000000#32) (r : Fin 16) :
    multiReduction .add [1] S16 v 0x00000000#32 hr hφ hacc (ix1 r) = ∑ w : Fin 256, v (ix2 r w) :=
  (Ideal.multiReduction_add_single v 0x00000000#32 hr hφ hacc (ix1 r)).trans
    (Finset.sum_congr rfl fun w _ => congrArg v (funext fun a => by
      match a with | ⟨0, _⟩ => rfl | ⟨1, _⟩ => rfl))

/-- A sum over the one row of a [1, 16] vector. -/
theorem lane_sum_one (v : FVec Ideal S1x16 .f32) (hr : S1x16.Reduces [1] S1) (hφ : FKind.Formats .f32)
    (hacc : (0x00000000#32 : BitVec 32) = 0x00000000#32) (u : Fin 1) :
    multiReduction .add [1] S1 v 0x00000000#32 hr hφ hacc (ix1 u) = ∑ r : Fin 16, v (ix2 u r) :=
  (Ideal.multiReduction_add_single v 0x00000000#32 hr hφ hacc (ix1 u)).trans
    (Finset.sum_congr rfl fun r _ => congrArg v (funext fun a => by
      match a with | ⟨0, _⟩ => rfl | ⟨1, _⟩ => rfl))

/-- The tile's number of kept pixels. -/
theorem pay10_eq (x1 : Vec Ideal S1x1x16x256 .f32) :
    k0_pay10 (F := Ideal) x1 = ∑ r : Fin 16, ∑ w : Fin 256, keep (x1 (ix4 (0 : Fin 1) (0 : Fin 1) r w)) := by
  unfold k0_pay10
  show shapeCast S1x1 (multiReduction .add [1] S1 (shapeCast S1x16 (multiReduction .add [1] S16 (k0_pay7 (F := Ideal) x1) 0x00000000#32 reduces_S16x256_S16 (.inl rfl) rfl) shapeCasts_S16_S1x16) 0x00000000#32 reduces_S1x16_S1 (.inl rfl) rfl) shapeCasts_S1_S1x1 (ix2 (0 : Fin 1) (0 : Fin 1)) = _
  refine (shapeCast_a_1a_apply _ shapeCasts_S1_S1x1 (0 : Fin 1) (0 : Fin 1)).trans ?_
  refine (lane_sum_one _ _ _ _ (0 : Fin 1)).trans ?_
  refine Finset.sum_congr rfl fun r _ => ?_
  refine (shapeCast_a_1a_apply _ shapeCasts_S16_S1x16 (0 : Fin 1) r).trans ?_
  refine (lane_sum_rows _ _ _ _ r).trans ?_
  exact Finset.sum_congr rfl fun w _ => pay7_apply x1 r w

/-- The tile's partial sum of feature × weight added to the accumulator, at a channel. -/
theorem pay11_apply (x1 : Vec Ideal S1x1x16x256 .f32) (x0 : Vec Ideal S1x256x16x256 .f32) (v25 : Vec Ideal S1x256 .f32) (ch : Fin 256) :
    k0_pay11 (F := Ideal) x1 x0 v25 (ix2 (0 : Fin 1) ch)
      = v25 (ix2 (0 : Fin 1) ch) + ∑ r : Fin 16, ∑ w : Fin 256, x0 (ix4 (0 : Fin 1) ch r w) * keep (x1 (ix4 (0 : Fin 1) (0 : Fin 1) r w)) := by
  unfold k0_pay11
  rw [shapeCast_self]
  show v25 (ix2 (0 : Fin 1) ch) + shapeCast S1x256 (multiReduction .add [1] S256 (multiReduction .add [2] S256x16 (k0_pay9 (F := Ideal) x1 x0) 0x00000000#32 reduces_S256x16x256_S256x16 (.inl rfl) rfl) 0x00000000#32 reduces_S256x16_S256 (.inl rfl) rfl) shapeCasts_S256_S1x256 (ix2 (0 : Fin 1) ch) = _
  refine congrArg (v25 (ix2 (0 : Fin 1) ch) + ·) ?_
  refine (shapeCast_a_1a_apply _ shapeCasts_S256_S1x256 (0 : Fin 1) ch).trans ?_
  refine (lane_sum2 _ _ _ _ ch).trans ?_
  refine Finset.sum_congr rfl fun r _ => ?_
  refine (lane_sum3 _ _ _ _ ch r).trans ?_
  exact Finset.sum_congr rfl fun w _ => pay9_apply x1 x0 ch r w

/-- The tile's partial sum of feature × (feature × weight), at a channel. -/
theorem pay12_apply (x1 : Vec Ideal S1x1x16x256 .f32) (x0 : Vec Ideal S1x256x16x256 .f32) (ch : Fin 256) :
    k0_pay12 (F := Ideal) x1 x0 (ix2 (0 : Fin 1) ch)
      = ∑ r : Fin 16, ∑ w : Fin 256, x0 (ix4 (0 : Fin 1) ch r w) * (x0 (ix4 (0 : Fin 1) ch r w) * keep (x1 (ix4 (0 : Fin 1) (0 : Fin 1) r w))) := by
  unfold k0_pay12
  refine (shapeCast_a_1a_apply _ shapeCasts_S256_S1x256 (0 : Fin 1) ch).trans ?_
  refine (lane_sum2 _ _ _ _ ch).trans ?_
  refine Finset.sum_congr rfl fun r _ => ?_
  refine (lane_sum3 _ _ _ _ ch r).trans ?_
  refine Finset.sum_congr rfl fun w _ => ?_
  show k0_pay8 (F := Ideal) x0 (ix3 ch r w) * k0_pay9 (F := Ideal) x1 x0 (ix3 ch r w) = _
  rw [pay8_apply, pay9_apply]

/-- The second accumulator's update: entrywise sum. -/
theorem pay1_apply (v31 : Vec Ideal S1x256 .f32) (v32 : FVec Ideal S1x256 .f32) (j : S1x256.Idx) :
    k0_pay1 (F := Ideal) v31 v32 j = v31 j + v32 j := by
  unfold k0_pay1
  rw [shapeCast_self]
  rfl

/-- The counter's update: its one entry plus the tile's count. -/
theorem pay2_apply (v24 : Ideal .f32) (v37 : Vec Ideal S1x1 .f32) (j : S1x1.Idx) :
    k0_pay2 (F := Ideal) v24 v37 j = v37 j + v24 := by
  unfold k0_pay2
  rw [shapeCast_self]
  rfl

/-- The zero blocks stored at a sample's first tile. -/
theorem pay4_apply (j : S1x256.Idx) : k0_pay4 (F := Ideal) j = 0 := by
  unfold k0_pay4
  rw [shapeCast_self]
  exact Ideal.ofBits_zero_f32
theorem pay5_apply (j : S1x256.Idx) : k0_pay5 (F := Ideal) j = 0 := by
  unfold k0_pay5
  rw [shapeCast_self]
  exact Ideal.ofBits_zero_f32
theorem pay6_apply (j : S1x1.Idx) : k0_pay6 (F := Ideal) j = 0 := by
  unfold k0_pay6
  rw [shapeCast_self]
  exact Ideal.ofBits_zero_f32

/-- The output block from the accumulators `n` (one entry), `s` and `ss` (one entry per channel). -/
theorem pay3_apply (v46 : Vec Ideal S1x1 .f32) (v47 v50 : Vec Ideal S1x256 .f32) (ch : Fin 256) :
    k0_pay3 (F := Ideal) v46 v47 v50 (ix3 (0 : Fin 1) (0 : Fin 1) ch)
      = Ideal.sqrt (Ideal.div
          (v50 (ix2 (0 : Fin 1) ch)
            - (v46 (ix2 (0 : Fin 1) (0 : Fin 1)) * Ideal.div (v47 (ix2 (0 : Fin 1) ch)) (v46 (ix2 (0 : Fin 1) (0 : Fin 1))))
              * Ideal.div (v47 (ix2 (0 : Fin 1) ch)) (v46 (ix2 (0 : Fin 1) (0 : Fin 1))))
          (v46 (ix2 (0 : Fin 1) (0 : Fin 1)) - Ideal.ofBits .f32 0x3F800000#32)) := by
  unfold k0_pay3
  rw [shapeCast_ab_1ab_apply _ shapeCasts_S1x256_S1x1x256 (0 : Fin 1) (0 : Fin 1) ch]
  show Ideal.sqrt (Ideal.div
      (v50 (ix2 (0 : Fin 1) ch)
        - (broadcastTo S1x256 v46 broadcasts_S1x1_S1x256 (ix2 (0 : Fin 1) ch) * Ideal.div (v47 (ix2 (0 : Fin 1) ch)) (broadcastTo S1x256 v46 broadcasts_S1x1_S1x256 (ix2 (0 : Fin 1) ch)))
          * Ideal.div (v47 (ix2 (0 : Fin 1) ch)) (broadcastTo S1x256 v46 broadcasts_S1x1_S1x256 (ix2 (0 : Fin 1) ch)))
      (broadcastTo S1x256 (subf v46 (broadcast S1x1 (Scalar.ofBits (F := Ideal) .f32 0x3F800000#32))) broadcasts_S1x1_S1x256 (ix2 (0 : Fin 1) ch))) = _
  rw [broadcastTo_11_1b_apply v46 broadcasts_S1x1_S1x256 (0 : Fin 1) ch, broadcastTo_11_1b_apply _ broadcasts_S1x1_S1x256 (0 : Fin 1) ch]
  rfl

end Cert.KernelIdeal.Payload

end
-- ==== Proof.Blocks.lean ====
import proofs.«104190_j11476152615311_2_alg».proof.Proof.Gen.KernelIdeal.Frame
import Idealize.ShloMosaic.Lib.Pipeline.Value
import Idealize.ShloMosaic.Lib.ValueIdx

/-!
# The input blocks of a grid point

The grid has 4 × 16 points; point `t` works on sample `t / 16` and on row tile `t % 16`, the rows
`16·(t % 16) + r` for `r < 16`. Its feature block [1, 256, 16, 256] holds, at (0, channel, r, w), the feature
array's entry (t / 16, channel, 16·(t % 16) + r, w), and its mask block [1, 1, 16, 256] holds, at (0, 0, r, w),
the mask's entry (t / 16, 0, 16·(t % 16) + r, w). Samples and rows are written as natural numbers reduced
modulo the extents, so that the arithmetic of tiles is arithmetic of naturals.
-/

set_option maxRecDepth 16384

noncomputable section

open Idealize.ShloMosaic Idealize.ShloMosaic.TcCoe Idealize.ShloMosaic.ValueIdx Idealize.SL.Sem

namespace Cert.KernelIdeal.Blocks

open Cert.KernelIdeal Cert.KernelIdeal.Gen

variable {F : FTy → Type} [FloatOps F]
variable (m : (ℓ : Loc nD τ sig) → Buf (Elt F) ℓ)

/-- The entry (sample `b`, channel, row `q`, column) of a [4, 256, 256, 256] array, sample and row as naturals. -/
def featAt {α : Type} (X : S4x256x256x256.Idx → α) (b : ℕ) (ch : Fin 256) (q : ℕ) (w : Fin 256) : α :=
  X (ix4 (⟨b % 4, Nat.mod_lt _ (by decide)⟩ : Fin 4) ch (⟨q % 256, Nat.mod_lt _ (by decide)⟩ : Fin 256) w)

/-- The entry (sample `b`, 0, row `q`, column) of a [4, 1, 256, 256] array, sample and row as naturals. -/
def maskAt {α : Type} (X : S4x1x256x256.Idx → α) (b : ℕ) (q : ℕ) (w : Fin 256) : α :=
  X (ix4 (⟨b % 4, Nat.mod_lt _ (by decide)⟩ : Fin 4) (0 : Fin 1) (⟨q % 256, Nat.mod_lt _ (by decide)⟩ : Fin 256) w)

/-- Where the three windows' blocks sit at each grid point: decided once over the 64 points. -/
theorem idx0 : ∀ t : Fin cfg0.N, win0_0.index t 0 = t.val / 16 ∧ win0_0.index t 1 = 0 ∧ win0_0.index t 2 = t.val % 16 ∧ win0_0.index t 3 = 0 :=
  (by decide +kernel : ∀ t : Fin grid0.N, win0_0.index t 0 = t.val / 16 ∧ win0_0.index t 1 = 0 ∧ win0_0.index t 2 = t.val % 16 ∧ win0_0.index t 3 = 0)
theorem idx1 : ∀ t : Fin cfg0.N, win0_1.index t 0 = t.val / 16 ∧ win0_1.index t 1 = 0 ∧ win0_1.index t 2 = t.val % 16 ∧ win0_1.index t 3 = 0 :=
  (by decide +kernel : ∀ t : Fin grid0.N, win0_1.index t 0 = t.val / 16 ∧ win0_1.index t 1 = 0 ∧ win0_1.index t 2 = t.val % 16 ∧ win0_1.index t 3 = 0)
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- The feature block of point `t` at (0, channel, r, w). -/
theorem iblk0_apply (c : Dev nD) (t : Fin cfg0.N) (ch : Fin 256) (r : Fin 16) (w : Fin 256) :
    (iblk m c 0 t : Vec F S1x256x16x256 .f32) (ix4 (0 : Fin 1) ch r w)
      = featAt (m ((c : Thread nD τ).loc main_arg0)) (t.val / 16) ch (16 * (t.val % 16) + r.val) w := by
  have hN : t.val < 64 := lt_of_lt_of_eq t.isLt (show cfg0.N = 64 from N_0)
  have hi := idx0 t
  have hr := r.isLt
  unfold iblk featAt
  rw [View.read_apply]
  show V m c main_arg0 _ = m (c.tc.loc main_arg0) _
  rw [V_main_arg0]
  refine congrArg (m ((c : Thread nD τ).loc main_arg0)) (funext fun a => Fin.ext ?_)
  match a with
  | ⟨0, _⟩ => show win0_0.index t 0 * 1 + 1 * 0 = (t.val / 16) % 4; rw [hi.1]; omega
  | ⟨1, _⟩ => show win0_0.index t 1 * 256 + 1 * ch.val = ch.val; rw [hi.2.1]; omega
  | ⟨2, _⟩ => show win0_0.index t 2 * 16 + 1 * r.val = (16 * (t.val % 16) + r.val) % 256; rw [hi.2.2.1]; omega
  | ⟨3, _⟩ => show win0_0.index t 3 * 256 + 1 * w.val = w.val; rw [hi.2.2.2]; omega

/-- The mask block of point `t` at (0, 0, r, w). -/
theorem iblk1_apply (c : Dev nD) (t : Fin cfg0.N) (r : Fin 16) (w : Fin 256) :
    (iblk m c 1 t : Vec F S1x1x16x256 .f32) (ix4 (0 : Fin 1) (0 : Fin 1) r w)
      = maskAt (m ((c : Thread nD τ).loc main_arg1)) (t.val / 16) (16 * (t.val % 16) + r.val) w := by
  have hN : t.val < 64 := lt_of_lt_of_eq t.isLt (show cfg0.N = 64 from N_0)
  have hi := idx1 t
  have hr := r.isLt
  unfold iblk maskAt
  rw [View.read_apply]
  show V m c main_arg1 _ = m (c.tc.loc main_arg1) _
  rw [V_main_arg1]
  refine congrArg (m ((c : Thread nD τ).loc main_arg1)) (funext fun a => Fin.ext ?_)
  match a with
  | ⟨0, _⟩ => show win0_1.index t 0 * 1 + 1 * 0 = (t.val / 16) % 4; rw [hi.1]; omega
  | ⟨1, _⟩ => show win0_1.index t 1 * 1 + 1 * 0 = 0; rw [hi.2.1]
  | ⟨2, _⟩ => show win0_1.index t 2 * 16 + 1 * r.val = (16 * (t.val % 16) + r.val) % 256; rw [hi.2.2.1]; omega
  | ⟨3, _⟩ => show win0_1.index t 3 * 256 + 1 * w.val = w.val; rw [hi.2.2.2]; omega

end Cert.KernelIdeal.Blocks

end
-- ==== Proof.Accumulate.lean ====
import proofs.«104190_j11476152615311_2_alg».proof.Proof.Gen.KernelIdeal.Frame
import proofs.«104190_j11476152615311_2_alg».proof.Proof.Pieces
import proofs.«104190_j11476152615311_2_alg».proof.Proof.Payload
import proofs.«104190_j11476152615311_2_alg».proof.Proof.Blocks

/-!
# The accumulators after each grid point

After the point that handles row tile `h` of sample `b` the three accumulators hold the sums over the rows
`q < 16·(h + 1)` of that sample: per channel, of the row's kept features and of their squares, and of the row's
number of kept pixels. By induction on the point: a sample's first tile starts from zero and adds its sixteen
rows; every later tile adds its sixteen rows to what the tile before left. At a sample's last tile the output
block is the standard deviation computed from the accumulators as that tile leaves them.
-/

set_option maxRecDepth 16384

noncomputable section

open Idealize.ShloMosaic Idealize.ShloMosaic.TcCoe Idealize.ShloMosaic.ValueIdx Idealize.SL.Sem

namespace Cert.KernelIdeal.Accumulate

open Cert.KernelIdeal Cert.KernelIdeal.Gen Cert.KernelIdeal.Blocks Cert.MaskedStd

/-! ## The three cases of the body, as the body's own arithmetic of the point's blocks -/

section Cases

variable {F : FTy → Type} [FloatOps F]
variable (m : (ℓ : Loc nD τ sig) → Buf (Elt F) ℓ)

/-- A sample's first tile: the accumulators are the tile's partial sums added to zero. -/
theorem first_tile (c : Dev nD) (t : Fin cfg0.N) (h0 : t.val % 16 = 0) :
    (outsAt0 m c t.val t.isLt).2.1 = k0_pay11 (iblk m c 1 t) (iblk m c 0 t) (k0_pay4 (F := F))
    ∧ (outsAt0 m c t.val t.isLt).2.2.1 = k0_pay1 (k0_pay5 (F := F)) (k0_pay12 (iblk m c 1 t) (iblk m c 0 t))
    ∧ (outsAt0 m c t.val t.isLt).2.2.2 = k0_pay2 (k0_pay10 (iblk m c 1 t)) (k0_pay6 (F := F)) := by
  have h1 : ¬t.val % 16 = 15 := by omega
  rw [outsAt0_A m c t h0 h1]
  dsimp only
  exact ⟨Pieces.sout0_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    Pieces.sout0_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    Pieces.sout0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)⟩

/-- A later tile: the accumulators are the tile's partial sums added to what the point before left. -/
theorem later_tile (c : Dev nD) (t : Fin cfg0.N) (h0 : ¬t.val % 16 = 0) :
    (outsAt0 m c t.val t.isLt).2.1 = k0_pay11 (iblk m c 1 t) (iblk m c 0 t) (outsAt0 m c (t.val - 1) (Nat.lt_of_le_of_lt (Nat.sub_le _ _) t.isLt)).2.1
    ∧ (outsAt0 m c t.val t.isLt).2.2.1 = k0_pay1 (outsAt0 m c (t.val - 1) (Nat.lt_of_le_of_lt (Nat.sub_le _ _) t.isLt)).2.2.1 (k0_pay12 (iblk m c 1 t) (iblk m c 0 t))
    ∧ (outsAt0 m c t.val t.isLt).2.2.2 = k0_pay2 (k0_pay10 (iblk m c 1 t)) (outsAt0 m c (t.val - 1) (Nat.lt_of_le_of_lt (Nat.sub_le _ _) t.isLt)).2.2.2 := by
  by_cases h1 : t.val % 16 = 15
  · rw [outsAt0_C m c t h0 h1]
    dsimp only
    exact ⟨Pieces.sout0_C_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sout0_C_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sout0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨Pieces.sout0_B_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sout0_B_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sout0_B_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- A sample's last tile: the output block is computed from the accumulators as this tile leaves them. -/
theorem last_out (c : Dev nD) (t : Fin cfg0.N) (h1 : t.val % 16 = 15) :
    (outsAt0 m c t.val t.isLt).1
      = k0_pay3 (outsAt0 m c t.val t.isLt).2.2.2 (outsAt0 m c t.val t.isLt).2.1 (outsAt0 m c t.val t.isLt).2.2.1 := by
  have h0 : ¬t.val % 16 = 0 := by omega
  rw [outsAt0_C m c t h0 h1]
  dsimp only
  refine (Pieces.out0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  exact congr (congr (congrArg k0_pay3
      (Pieces.sout0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm)
      (Pieces.sout0_C_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm)
      (Pieces.sout0_C_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm

end Cases

end Cert.KernelIdeal.Accumulate

end
-- ==== Proof.Running.lean ====
import proofs.«104190_j11476152615311_2_alg».proof.Proof.Accumulate

/-!
# The running sums, and the output block of a sample's last tile

Rows are summed first: for sample `b` and row `q`, the row's number of kept pixels, its sum of kept features
of a channel and its sum of their squares are sums over the 256 columns. After the point that handles row tile
`h` of a sample the accumulators are the sums of these row sums over `q < 16·(h + 1)`; after the last tile
(`h = 15`) they are the sample's totals over all 256 rows, which are the totals of the specification, and the
output block is the specification's one-pass standard deviation.
-/

set_option maxRecDepth 16384

noncomputable section

open Idealize.ShloMosaic Idealize.ShloMosaic.TcCoe Idealize.ShloMosaic.ValueIdx Idealize.SL.Sem

namespace Cert.KernelIdeal.Running

open Cert.KernelIdeal Cert.KernelIdeal.Gen Cert.KernelIdeal.Blocks Cert.KernelIdeal.Accumulate Cert.MaskedStd

/-! ## Row sums -/

/-- The number of kept pixels of row `q` of sample `b`. -/
def rowCnt (M : S4x1x256x256.Idx → EReal) (b q : ℕ) : EReal := ∑ w : Fin 256, keep (maskAt M b q w)

/-- The sum of the kept features of channel `ch` in row `q` of sample `b`. -/
def rowTot (A : S4x256x256x256.Idx → EReal) (M : S4x1x256x256.Idx → EReal) (b : ℕ) (ch : Fin 256) (q : ℕ) : EReal :=
  ∑ w : Fin 256, featAt A b ch q w * keep (maskAt M b q w)

/-- The sum of the squares of the kept features of channel `ch` in row `q` of sample `b`. -/
def rowSq (A : S4x256x256x256.Idx → EReal) (M : S4x1x256x256.Idx → EReal) (b : ℕ) (ch : Fin 256) (q : ℕ) : EReal :=
  ∑ w : Fin 256, featAt A b ch q w * (featAt A b ch q w * keep (maskAt M b q w))

/-- Sixteen more rows extend a sum over the rows below `16·h` to the rows below `16·(h + 1)`. -/
theorem sum_step (f : ℕ → EReal) (h : ℕ) :
    ∑ q ∈ Finset.range (16 * h), f q + ∑ r ∈ Finset.range 16, f (16 * h + r) = ∑ q ∈ Finset.range (16 * (h + 1)), f q := by
  rw [Nat.mul_succ, Finset.sum_range_add]

/-- From zero, the first sixteen rows. -/
theorem sum_first (f : ℕ → EReal) :
    (0 : EReal) + ∑ r ∈ Finset.range 16, f (16 * 0 + r) = ∑ q ∈ Finset.range (16 * (0 + 1)), f q := by
  simp

section
variable (m : (ℓ : Loc nD τ sig) → Buf (Elt Ideal) ℓ) (c : Dev nD)

/-- The feature array and the mask as the region finds them. -/
abbrev arrA : S4x256x256x256.Idx → EReal := m ((c : Thread nD τ).loc main_arg0)
abbrev arrM : S4x1x256x256.Idx → EReal := m ((c : Thread nD τ).loc main_arg1)

/-! ## One tile's partial sums are sixteen row sums -/

end

/-- A tile whose mask block holds rows `16·h + r` of sample `b`: its count of kept pixels is sixteen row counts. -/
theorem tile_cnt (x1 : Vec Ideal S1x1x16x256 .f32) (M : S4x1x256x256.Idx → EReal) (b h : ℕ)
    (h1 : ∀ (r : Fin 16) (w : Fin 256), x1 (ix4 (0 : Fin 1) (0 : Fin 1) r w) = maskAt M b (16 * h + r.val) w) :
    ∑ r : Fin 16, ∑ w : Fin 256, keep (x1 (ix4 (0 : Fin 1) (0 : Fin 1) r w))
      = ∑ r ∈ Finset.range 16, rowCnt M b (16 * h + r) := by
  rw [Finset.sum_range]
  refine Finset.sum_congr rfl fun r _ => ?_
  unfold rowCnt
  exact Finset.sum_congr rfl fun w _ => by rw [h1 r w]

/-- The same tile's sum of kept features of a channel is sixteen row sums. -/
theorem tile_tot (x0 : Vec Ideal S1x256x16x256 .f32) (x1 : Vec Ideal S1x1x16x256 .f32)
    (A : S4x256x256x256.Idx → EReal) (M : S4x1x256x256.Idx → EReal) (b h : ℕ) (ch : Fin 256)
    (h0 : ∀ (r : Fin 16) (w : Fin 256), x0 (ix4 (0 : Fin 1) ch r w) = featAt A b ch (16 * h + r.val) w)
    (h1 : ∀ (r : Fin 16) (w : Fin 256), x1 (ix4 (0 : Fin 1) (0 : Fin 1) r w) = maskAt M b (16 * h + r.val) w) :
    ∑ r : Fin 16, ∑ w : Fin 256, x0 (ix4 (0 : Fin 1) ch r w) * keep (x1 (ix4 (0 : Fin 1) (0 : Fin 1) r w))
      = ∑ r ∈ Finset.range 16, rowTot A M b ch (16 * h + r) := by
  rw [Finset.sum_range]
  refine Finset.sum_congr rfl fun r _ => ?_
  unfold rowTot
  exact Finset.sum_congr rfl fun w _ => by rw [h0 r w, h1 r w]

/-- And its sum of their squares. -/
theorem tile_sq (x0 : Vec Ideal S1x256x16x256 .f32) (x1 : Vec Ideal S1x1x16x256 .f32)
    (A : S4x256x256x256.Idx → EReal) (M : S4x1x256x256.Idx → EReal) (b h : ℕ) (ch : Fin 256)
    (h0 : ∀ (r : Fin 16) (w : Fin 256), x0 (ix4 (0 : Fin 1) ch r w) = featAt A b ch (16 * h + r.val) w)
    (h1 : ∀ (r : Fin 16) (w : Fin 256), x1 (ix4 (0 : Fin 1) (0 : Fin 1) r w) = maskAt M b (16 * h + r.val) w) :
    ∑ r : Fin 16, ∑ w : Fin 256, x0 (ix4 (0 : Fin 1) ch r w)
        * (x0 (ix4 (0 : Fin 1) ch r w) * keep (x1 (ix4 (0 : Fin 1) (0 : Fin 1) r w)))
      = ∑ r ∈ Finset.range 16, rowSq A M b ch (16 * h + r) := by
  rw [Finset.sum_range]
  refine Finset.sum_congr rfl fun r _ => ?_
  unfold rowSq
  exact Finset.sum_congr rfl fun w _ => by rw [h0 r w, h1 r w]

section
variable (m : (ℓ : Loc nD τ sig) → Buf (Elt Ideal) ℓ) (c : Dev nD)

/-! ## The accumulators after point `n` -/

/-- After point `n`: the three accumulators are the sums of the row sums over the rows below `16·(n % 16 + 1)`
    of sample `n / 16`. -/
def Sums (n : ℕ) (hn : n < cfg0.N) : Prop :=
  (∀ ch : Fin 256, (outsAt0 m c n hn).2.1 (ix2 (0 : Fin 1) ch)
      = ∑ q ∈ Finset.range (16 * (n % 16 + 1)), rowTot (arrA m c) (arrM m c) (n / 16) ch q)
  ∧ (∀ ch : Fin 256, (outsAt0 m c n hn).2.2.1 (ix2 (0 : Fin 1) ch)
      = ∑ q ∈ Finset.range (16 * (n % 16 + 1)), rowSq (arrA m c) (arrM m c) (n / 16) ch q)
  ∧ (outsAt0 m c n hn).2.2.2 (ix2 (0 : Fin 1) (0 : Fin 1))
      = ∑ q ∈ Finset.range (16 * (n % 16 + 1)), rowCnt (arrM m c) (n / 16) q

/-- A sample's first tile: the accumulators start from zero. -/
theorem sums_first (t : Fin cfg0.N) (h0 : t.val % 16 = 0) : Sums m c t.val t.isLt := by
  obtain ⟨e0, e1, e2⟩ := first_tile m c t h0
  refine ⟨fun ch => ?_, fun ch => ?_, ?_⟩
  · refine (congrFun e0 (ix2 (0 : Fin 1) ch)).trans ?_
    refine (Payload.pay11_apply (iblk m c 1 t) (iblk m c 0 t) (k0_pay4 (F := Ideal)) ch).trans ?_
    rw [Payload.pay4_apply, tile_tot (iblk m c 0 t) (iblk m c 1 t) (arrA m c) (arrM m c) (t.val / 16) (t.val % 16) ch (fun r w => iblk0_apply m c t ch r w) (fun r w => iblk1_apply m c t r w), h0]
    exact sum_first _
  · refine (congrFun e1 (ix2 (0 : Fin 1) ch)).trans ?_
    refine (Payload.pay1_apply (k0_pay5 (F := Ideal)) (k0_pay12 (iblk m c 1 t) (iblk m c 0 t)) (ix2 (0 : Fin 1) ch)).trans ?_
    rw [Payload.pay5_apply, Payload.pay12_apply (iblk m c 1 t) (iblk m c 0 t) ch, tile_sq (iblk m c 0 t) (iblk m c 1 t) (arrA m c) (arrM m c) (t.val / 16) (t.val % 16) ch (fun r w => iblk0_apply m c t ch r w) (fun r w => iblk1_apply m c t r w), h0]
    exact sum_first _
  · refine (congrFun e2 (ix2 (0 : Fin 1) (0 : Fin 1))).trans ?_
    refine (Payload.pay2_apply (k0_pay10 (iblk m c 1 t)) (k0_pay6 (F := Ideal)) (ix2 (0 : Fin 1) (0 : Fin 1))).trans ?_
    rw [Payload.pay6_apply, Payload.pay10_eq (iblk m c 1 t), tile_cnt (iblk m c 1 t) (arrM m c) (t.val / 16) (t.val % 16) (fun r w => iblk1_apply m c t r w), h0]
    exact sum_first _

/-- A later tile: sixteen more rows on top of what the point before left. -/
theorem sums_later (t : Fin cfg0.N) (h0 : ¬t.val % 16 = 0)
    (ih : Sums m c (t.val - 1) (Nat.lt_of_le_of_lt (Nat.sub_le _ _) t.isLt)) : Sums m c t.val t.isLt := by
  obtain ⟨e0, e1, e2⟩ := later_tile m c t h0
  obtain ⟨i0, i1, i2⟩ := ih
  have hb : (t.val - 1) / 16 = t.val / 16 := by omega
  have hh : (t.val - 1) % 16 + 1 = t.val % 16 := by omega
  rw [hb, hh] at i0 i1 i2
  refine ⟨fun ch => ?_, fun ch => ?_, ?_⟩
  · refine (congrFun e0 (ix2 (0 : Fin 1) ch)).trans ?_
    refine (Payload.pay11_apply (iblk m c 1 t) (iblk m c 0 t) (outsAt0 m c (t.val - 1) (Nat.lt_of_le_of_lt (Nat.sub_le _ _) t.isLt)).2.1 ch).trans ?_
    rw [i0 ch, tile_tot (iblk m c 0 t) (iblk m c 1 t) (arrA m c) (arrM m c) (t.val / 16) (t.val % 16) ch (fun r w => iblk0_apply m c t ch r w) (fun r w => iblk1_apply m c t r w)]
    exact sum_step _ _
  · refine (congrFun e1 (ix2 (0 : Fin 1) ch)).trans ?_
    refine (Payload.pay1_apply (outsAt0 m c (t.val - 1) (Nat.lt_of_le_of_lt (Nat.sub_le _ _) t.isLt)).2.2.1 (k0_pay12 (iblk m c 1 t) (iblk m c 0 t)) (ix2 (0 : Fin 1) ch)).trans ?_
    rw [i1 ch, Payload.pay12_apply (iblk m c 1 t) (iblk m c 0 t) ch, tile_sq (iblk m c 0 t) (iblk m c 1 t) (arrA m c) (arrM m c) (t.val / 16) (t.val % 16) ch (fun r w => iblk0_apply m c t ch r w) (fun r w => iblk1_apply m c t r w)]
    exact sum_step _ _
  · refine (congrFun e2 (ix2 (0 : Fin 1) (0 : Fin 1))).trans ?_
    refine (Payload.pay2_apply (k0_pay10 (iblk m c 1 t)) (outsAt0 m c (t.val - 1) (Nat.lt_of_le_of_lt (Nat.sub_le _ _) t.isLt)).2.2.2 (ix2 (0 : Fin 1) (0 : Fin 1))).trans ?_
    rw [i2, Payload.pay10_eq (iblk m c 1 t), tile_cnt (iblk m c 1 t) (arrM m c) (t.val / 16) (t.val % 16) (fun r w => iblk1_apply m c t r w)]
    exact sum_step _ _

/-- By induction on the point. -/
theorem sums : ∀ (n : ℕ) (hn : n < cfg0.N), Sums m c n hn
  | 0, hn => sums_first m c ⟨0, hn⟩ rfl
  | n + 1, hn => by
    by_cases h0 : (n + 1) % 16 = 0
    · exact sums_first m c ⟨n + 1, hn⟩ h0
    · exact sums_later m c ⟨n + 1, hn⟩ h0 (sums n (Nat.lt_of_succ_lt hn))

end

end Cert.KernelIdeal.Running

end
-- ==== Proof.Region.lean ====
import proofs.«104190_j11476152615311_2_alg».proof.Proof.Running
import Idealize.ShloMosaic.Lib.Pipeline.Value

/-!
# The array the region leaves

A sample's block of the result array [4, 1, 256] is written back once, after the sample's last row tile. By then
the accumulators hold the sums over all 256 rows, which are the specification's totals over the 256 × 256
pixels, so the block holds, per channel, the one-pass standard deviation of the sample. The four blocks cover the
array, so the array ends as that function of (sample, channel).
-/

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region

open Cert.KernelIdeal Cert.KernelIdeal.Gen Cert.KernelIdeal.Blocks Cert.KernelIdeal.Accumulate Cert.KernelIdeal.Running
open Cert.MaskedStd

/-! ## All 256 rows: the specification's totals -/

theorem fin_mod (q : Fin 256) : (⟨q.val % 256, Nat.mod_lt _ (by decide)⟩ : Fin 256) = q :=
  Fin.ext (Nat.mod_eq_of_lt q.isLt)

theorem total_cnt (M : S4x1x256x256.Idx → EReal) (b : ℕ) :
    ∑ q ∈ Finset.range 256, rowCnt M b q = cnt M ⟨b % 4, Nat.mod_lt _ (by decide)⟩ := by
  unfold cnt kept rowCnt maskAt
  rw [Fintype.sum_prod_type, Finset.sum_range]
  refine Finset.sum_congr rfl fun q _ => Finset.sum_congr rfl fun w _ => ?_
  rw [fin_mod q]

theorem total_tot (A : S4x256x256x256.Idx → EReal) (M : S4x1x256x256.Idx → EReal) (b : ℕ) (ch : Fin 256) :
    ∑ q ∈ Finset.range 256, rowTot A M b ch q = tot A M ⟨b % 4, Nat.mod_lt _ (by decide)⟩ ch := by
  unfold tot feat kept rowTot featAt maskAt
  rw [Fintype.sum_prod_type, Finset.sum_range]
  refine Finset.sum_congr rfl fun q _ => Finset.sum_congr rfl fun w _ => ?_
  rw [fin_mod q]

theorem total_sq (A : S4x256x256x256.Idx → EReal) (M : S4x1x256x256.Idx → EReal) (b : ℕ) (ch : Fin 256) :
    ∑ q ∈ Finset.range 256, rowSq A M b ch q = totSq A M ⟨b % 4, Nat.mod_lt _ (by decide)⟩ ch := by
  unfold totSq feat kept rowSq featAt maskAt
  rw [Fintype.sum_prod_type, Finset.sum_range]
  refine Finset.sum_congr rfl fun q _ => Finset.sum_congr rfl fun w _ => ?_
  rw [fin_mod q]

/-- The one-pass standard deviation of (sample `b`, channel `ch`), both as naturals reduced modulo the extents. -/
def stdAt (A : S4x256x256x256.Idx → EReal) (M : S4x1x256x256.Idx → EReal) (b ch : ℕ) : EReal :=
  stdOf M ⟨b % 4, Nat.mod_lt _ (by decide)⟩
    (devOne A M ⟨b % 4, Nat.mod_lt _ (by decide)⟩ ⟨ch % 256, Nat.mod_lt _ (by decide)⟩)

/-- The result array of the region: at (sample, 0, channel) the one-pass standard deviation. -/
def regionOut (A : S4x256x256x256.Idx → EReal) (M : S4x1x256x256.Idx → EReal) (i : S4x1x256.Idx) : EReal :=
  stdAt A M (i 0).val (i 2).val

section
variable (m : (ℓ : Loc nD τ sig) → Buf (Elt Ideal) ℓ) (c : Dev nD)

/-! ## The block a sample's last tile stores -/

theorem last_block (t : Fin cfg0.N) (h1 : t.val % 16 = 15) (ch : Fin 256) :
    (outsAt0 m c t.val t.isLt).1 (ix3 (0 : Fin 1) (0 : Fin 1) ch) = stdAt (arrA m c) (arrM m c) (t.val / 16) ch.val := by
  obtain ⟨s0, s1, s2⟩ := sums m c t.val t.isLt
  refine (congrFun (last_out m c t h1) (ix3 (0 : Fin 1) (0 : Fin 1) ch)).trans ?_
  refine (Payload.pay3_apply (outsAt0 m c t.val t.isLt).2.2.2 (outsAt0 m c t.val t.isLt).2.1 (outsAt0 m c t.val t.isLt).2.2.1 ch).trans ?_
  rw [s0 ch, s1 ch, s2, h1, show 16 * (15 + 1) = 256 from rfl, total_cnt, total_tot, total_sq]
  unfold stdAt stdOf devOne mean
  rw [fin_mod ch]

/-- The same at any index of the block. -/
theorem last_block_at (t : Fin cfg0.N) (h1 : t.val % 16 = 15) (j : S1x1x256.Idx) :
    (outsAt0 m c t.val t.isLt).1 j = stdAt (arrA m c) (arrM m c) (t.val / 16) (j 2).val := by
  have e : j = ix3 (0 : Fin 1) (0 : Fin 1) (j 2) := by
    funext a
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => rfl
  rw [e]
  exact last_block m c t h1 (j 2)

/-! ## Written back once per sample; the four blocks cover the array -/

theorem flushed_eq (t : Fin cfg0.N) (hf : (cfg0.win 2).flush t = true) :
    (dats m 0 c).flushed 2 t = ((cfg0.win 2).blk t).view.read (Elt Ideal) (regionOut (arrA m c) (arrM m c)) := by
  have h1 : t.val % 16 = 15 := (flush0_2 t).mp hf
  have hi := idx2 t
  show (cfg0.win 2).cut (grid0.coords t) ((dats m 0 c).after 2 t) = _
  rw [after0_2]
  funext j
  show (outsAt0 m c t.val t.isLt).1 j = regionOut (arrA m c) (arrM m c) (((cfg0.win 2).blk t).view.emb j)
  have hj0 : (j 0).val < 1 := (j 0).isLt
  have e0 : ((((cfg0.win 2).blk t).view.emb j) 0).val = t.val / 16 := by
    show win0_2.index t 0 * 1 + 1 * (j 0).val = t.val / 16
    rw [hi.1]; omega
  have e2 : ((((cfg0.win 2).blk t).view.emb j) 2).val = (j 2).val := by
    show win0_2.index t 2 * 256 + 1 * (j 2).val = (j 2).val
    rw [hi.2.2]; omega
  unfold regionOut
  rw [e0, e2]
  exact last_block_at m c t h1 j

theorem mem_blk (t : Fin cfg0.N) (i : S4x1x256.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_v0).slice (win0_2.rect t)).set ↔ _
  rw [View.set_slice_whole, Rect.mem_set_unit]
  exact Iff.rfl

theorem cover (i : S4x1x256.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 256 := (i 2).isLt
  refine ⟨⟨16 * (i 0).val + 15, lt_of_lt_of_eq (by omega : 16 * (i 0).val + 15 < 64) (N_0).symm⟩, ?_, ?_⟩
  · exact (flush0_2 _).mpr (by show (16 * (i 0).val + 15) % 16 = 15; omega)
  · rw [mem_blk]
    have hi := idx2 ⟨16 * (i 0).val + 15, lt_of_lt_of_eq (by omega : 16 * (i 0).val + 15 < 64) (N_0).symm⟩
    have q0 : win0_2.index ⟨16 * (i 0).val + 15, lt_of_lt_of_eq (by omega : 16 * (i 0).val + 15 < 64) (N_0).symm⟩ 0 = (i 0).val := by
      rw [hi.1]; show (16 * (i 0).val + 15) / 16 = (i 0).val; omega
    intro a
    match a with
    | ⟨0, _⟩ => show win0_2.index _ 0 * 1 ≤ (i 0).val ∧ (i 0).val < win0_2.index _ 0 * 1 + 1; rw [q0]; omega
    | ⟨1, _⟩ => show win0_2.index _ 1 * 1 ≤ (i 1).val ∧ (i 1).val < win0_2.index _ 1 * 1 + 1; rw [hi.2.1]; omega
    | ⟨2, _⟩ => show win0_2.index _ 2 * 256 ≤ (i 2).val ∧ (i 2).val < win0_2.index _ 2 * 256 + 256; rw [hi.2.2]; omega

/-- The region's result array after the run. -/
theorem final (c : Dev nD) : (dats m 0 c).arrAt 2 cfg0.N = regionOut (arrA m c) (arrM m c) :=
  (dats m 0 c).arrAt_eq_of_cover 2 (regionOut (arrA m c) (arrM m c)) (flushed_eq m c) (cover)

end

end Cert.KernelIdeal.Region

end
-- ==== Proof.HostTail.lean ====
import proofs.«104190_j11476152615311_2_alg».proof.Proof.Gen.KernelIdeal
import proofs.«104190_j11476152615311_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-!
# The host operations after the kernel, read at an index

After the kernel has written the standard deviations as a [4, 1, 256] array, the program reshapes it to [4, 256],
forms the floor 10⁻⁶ + T of each channel (the parameter [1, 256, 1, 1] reshaped to [256], the constant added, the
sum copied to every sample), takes the maximum of the two and reshapes the result to [4, 256, 1, 1]. Every reshape
keeps row-major positions and every copy reads the channel coordinate, so the result at (sample, channel) is the
maximum of the kernel's entry at (sample, 0, channel) and the channel's floor.
-/

noncomputable section

namespace Cert.KernelIdeal.HostTail

open Cert.KernelIdeal Cert.KernelIdeal.Gen Cert.MaskedStd Idealize.ShloMosaic Idealize.ShloMosaic.ValueIdx

/-- The nine host operations after the kernel, as one function of the kernel's result [4, 1, 256] and of the floor parameter [1, 256, 1, 1]. -/
def tail {F : FTy → Type} [FloatOps F] (Y : FVec F S4x1x256 .f32) (T : FVec F S1x256x1x1 .f32) : FVec F S4x256x1x1 .f32 :=
  shapeCast S4x256x1x1
    (maximumf (shapeCast S4x256 Y shapeCasts_S4x1x256_S4x256)
      (broadcastInDim S4x256 ![0, 1] bcast_S1x256_S4x256_0_1
        (broadcastInDim S1x256 ![1] bcast_S256_S1x256_1
          (addf (broadcastInDim S256 ![] bcast_S_S256 (constant S_ .f32 0x358637BD#32))
            (shapeCast S256 T shapeCasts_S1x256x1x1_S256)))))
    shapeCasts_S4x256_S4x256x1x1

/-- At (sample, channel) the result is the larger of the kernel's entry and the channel's floor. -/
theorem tail_apply (Y : FVec Ideal S4x1x256 .f32) (T : FVec Ideal S1x256x1x1 .f32) (b : Fin 4) (ch : Fin 256)
    (u v : Fin 1) :
    tail (F := Ideal) Y T (ix4 b ch u v) = max (Y (ix3 b (0 : Fin 1) ch)) (lowest T ch) := by
  obtain rfl : u = 0 := Subsingleton.elim _ _
  obtain rfl : v = 0 := Subsingleton.elim _ _
  unfold tail
  rw [shapeCast_apply _ shapeCasts_S4x256_S4x256x1x1 (ix4 b ch (0 : Fin 1) (0 : Fin 1)) (ix2 b ch) (by
      rw [Shape.rowMajor_val_two, Shape.rowMajor_val_four]
      show b.val * 256 + ch.val = ((b.val * 256 + ch.val) * 1 + 0) * 1 + 0
      omega)]
  rw [maximumf_apply]
  rw [shapeCast_apply Y shapeCasts_S4x1x256_S4x256 (ix2 b ch) (ix3 b (0 : Fin 1) ch) (by
      rw [Shape.rowMajor_val_three, Shape.rowMajor_val_two]
      show (b.val * 1 + 0) * 256 + ch.val = b.val * 256 + ch.val
      omega)]
  rw [broadcastInDim_apply ![0, 1] bcast_S1x256_S4x256_0_1 _ (ix2 b ch) (ix2 (0 : Fin 1) ch) (fun a => match a with
      | ⟨0, _⟩ => by show 0 = if (1 : Nat) = 1 then 0 else b.val; rw [if_pos rfl]
      | ⟨1, _⟩ => by show ch.val = if (256 : Nat) = 1 then 0 else ch.val; rw [if_neg (by decide)])]
  rw [broadcastInDim_apply ![1] bcast_S256_S1x256_1 _ (ix2 (0 : Fin 1) ch) (ix1 ch) (fun a => match a with
      | ⟨0, _⟩ => by show ch.val = if (256 : Nat) = 1 then 0 else ch.val; rw [if_neg (by decide)])]
  rw [addf_apply, broadcastInDim_scalar_apply, constant_apply]
  rw [shapeCast_apply T shapeCasts_S1x256x1x1_S256 (ix1 ch) (ix4 (0 : Fin 1) ch (0 : Fin 1) (0 : Fin 1)) (by
      rw [Shape.rowMajor_val_four, Shape.rowMajor_val_one]
      show ((0 * 256 + ch.val) * 1 + 0) * 1 + 0 = ch.val
      omega)]
  rfl

/-- When the kernel's entries are the one-pass standard deviations, the result array is the one-pass form of the
    specification. -/
theorem tail_eq_onePass (A : SA.Idx → EReal) (M : SM.Idx → EReal) (T : FVec Ideal S1x256x1x1 .f32)
    (Y : FVec Ideal S4x1x256 .f32)
    (hY : ∀ (b : Fin 4) (ch : Fin 256), Y (ix3 b (0 : Fin 1) ch) = stdOf M b (devOne A M b ch)) :
    tail (F := Ideal) Y T = onePass A M T := by
  funext i
  obtain ⟨b, ch, u, v, rfl⟩ : ∃ (b : Fin 4) (ch : Fin 256) (u v : Fin 1), i = ix4 b ch u v :=
    ⟨_, _, _, _, eq_ix4 i⟩
  rw [tail_apply, hY]
  rfl

end Cert.KernelIdeal.HostTail

end
-- ==== Proof.KernelValue.lean ====
import proofs.«104190_j11476152615311_2_alg».proof.Proof.Region
import proofs.«104190_j11476152615311_2_alg».proof.Proof.HostTail
import Idealize.ShloMosaic.Lib.StableHlo.Run

/-!
# The kernel program's result

After the region, nine host operations re-lay the region's array [4, 1, 256] as [4, 256], form each channel's
floor, take the entrywise maximum and re-lay the result as [4, 256, 1, 1]. Applied to the array the region
leaves — the one-pass standard deviation per (sample, channel) — they give the specification's one-pass result;
so every execution of the program ends with that array in the result buffer and the three arguments unchanged.
-/

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.KernelIdeal.Running Cert.KernelIdeal.Region Cert.KernelIdeal.HostTail
open Cert.MaskedStd

/-- The region's array at (sample, 0, channel) is the specification's one-pass standard deviation. -/
theorem regionOut_apply (A : S4x256x256x256.Idx → EReal) (M : S4x1x256x256.Idx → EReal) (b : Fin 4) (ch : Fin 256) :
    regionOut A M (ix3 b (0 : Fin 1) ch) = stdOf M b (devOne A M b ch) := by
  unfold regionOut stdAt
  show stdOf M ⟨b.val % 4, Nat.mod_lt _ (by decide)⟩ (devOne A M ⟨b.val % 4, Nat.mod_lt _ (by decide)⟩ ⟨ch.val % 256, Nat.mod_lt _ (by decide)⟩) = _
  rw [fin_mod ch, show (⟨b.val % 4, Nat.mod_lt _ (by decide)⟩ : Fin 4) = b from Fin.ext (Nat.mod_eq_of_lt b.isLt)]

variable (m : (ℓ : Loc nD τ sig) → Buf (Elt Ideal) ℓ) (ρ : Dev nD → PrngReg)

/-- What the result buffer holds after the host operations that follow the region. -/
theorem result_eq (c : Dev nD) :
    Pipeline.afterTail₀ cfgs (dats m) 0 (V0 m) [hostOps1] c main_v8
      = tail (F := Ideal) (regionOut (arrA m c) (arrM m c)) (m ((c : Thread nD τ).loc main_arg2)) := by
  have hv0 : Pipeline.withArrays spec0 c (V0 m c) (fun w => (dats m 0 c).arrAt w cfg0.N) (Proc.devRef .tc main_v0)
      = regionOut (arrA m c) (arrM m c) :=
    (Pipeline.withArrays_arr spec0 launch0.win.arr_inj c (V0 m c) (fun w => (dats m 0 c).arrAt w cfg0.N) 2).trans (final m c)
  have hv2 : Pipeline.withArrays spec0 c (V0 m c) (fun w => (dats m 0 c).arrAt w cfg0.N) (Proc.devRef .tc main_arg2)
      = m ((c : Thread nD τ).loc main_arg2) :=
    (Pipeline.withArrays_of_ne spec0 c (V0 m c) (fun w => (dats m 0 c).arrAt w cfg0.N) main_arg2
      (by exact (by decide : ∀ w, Pipeline.arrRef spec0 w ≠ main_arg2))).trans (V_main_arg2 m c)
  unfold Pipeline.afterTail₀
  show StableHlo.after hostOps1 _ (Proc.devRef .tc main_v8) = _
  after_results
  show tail (F := Ideal) (Pipeline.withArrays spec0 c (V0 m c) (fun w => (dats m 0 c).arrAt w cfg0.N) (Proc.devRef .tc main_v0))
      (Pipeline.withArrays spec0 c (V0 m c) (fun w => (dats m 0 c).arrAt w cfg0.N) (Proc.devRef .tc main_arg2)) = _
  rw [hv0, hv2]

/-- THE RUN of the kernel program at the ideal instance: the result buffer ends at the specification's one-pass
    result of the three argument arrays, which end unchanged. -/
theorem run : θ_run defs (onTc (τ := τ) (main (F := Ideal))) ⟨m, fun _ => 0, ρ⟩ fun r => ∀ c : Dev nD,
      r.2.mem ((c.tc : Thread nD τ).loc main_v8)
        = onePass (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v8 (Pipeline.mem_restRefs_of main_v8 (by decide) (by decide))).trans
        ((result_eq m c).trans (tail_eq_onePass (arrA m c) (arrM m c) (m ((c : Thread nD τ).loc main_arg2))
          (regionOut (arrA m c) (arrM m c)) (fun b ch => regionOut_apply (arrA m c) (arrM m c) b ch))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.RefValue.lean ====
import proofs.«104190_j11476152615311_2_alg».proof.Proof.Spec
import proofs.«104190_j11476152615311_2_alg».proof.Proof.Gen.ReferenceIdeal.Read
import Idealize.ShloMosaic.Lib.ValueIdx
import Idealize.ShloMosaic.Lib.IdealHost
import Idealize.ShloMosaic.Lib.Pipeline.Value
import Idealize.ShloMosaic.PureOps.Ideal.Laws

/-!
# The reference's result, read index by index

The reference computes, per sample and channel, the masked two-pass standard deviation: the mask weight of a pixel is
the comparison "at most one half" read as 0 or 1; its three sums run over the two pixel axes; the mean is the ratio of
the kept-feature sum to the kept count; the squared distances from the mean, weighted, are summed, divided by the
count less one, rooted, and bounded below by the channel's floor. Each stage below is the corresponding quantity of
the specification at a (sample, channel) index; the last theorem is the equality of the two arrays.
-/

noncomputable section

open Idealize.ShloMosaic Idealize.ShloMosaic.ValueIdx Idealize.ShloMosaic.StableHlo
open Cert.ReferenceIdeal Cert.ReferenceIdeal.Read

namespace Cert.MaskedStd.RefValue

/-! ## A sum over the two pixel axes -/

/-- The indices of a [4, 256, 256, 256] array that lose their last two coordinates to (b, ch) are the pixels of
    (b, ch): the sum over them is the sum over the pixel pairs. -/
theorem sum_filter_drop_feat (h : S4x256x256x256.ReducesTo [2, 3] S4x256) (x : S4x256x256x256.Idx → EReal)
    (b : Fin 4) (ch : Fin 256) :
    ∑ i ∈ Finset.univ.filter (fun i => h.drop i = ix2 b ch), x i
      = ∑ p : Fin 256 × Fin 256, x (ix4 b ch p.1 p.2) := by
  refine Finset.sum_nbij' (fun i => ((⟨(i 2).val, (i 2).isLt⟩ : Fin 256), (⟨(i 3).val, (i 3).isLt⟩ : Fin 256)))
    (fun p => ix4 b ch p.1 p.2) ?_ ?_ ?_ ?_ ?_
  · intro i _; exact Finset.mem_univ _
  · intro p _
    refine Finset.mem_filter.2 ⟨Finset.mem_univ _, ?_⟩
    funext a
    apply Fin.ext
    match a with
    | ⟨0, _⟩ => exact h.drop_apply_val_of_eq (ix4 b ch p.1 p.2) 0 0
    | ⟨1, _⟩ => exact h.drop_apply_val_of_eq (ix4 b ch p.1 p.2) 1 1
  · intro i hi
    have hj := (Finset.mem_filter.1 hi).2
    have h0 : (i 0).val = b.val := by
      rw [← h.drop_apply_val_of_eq i 0 0, hj]
    have h1 : (i 1).val = ch.val := by
      rw [← h.drop_apply_val_of_eq i 1 1, hj]
    funext a
    apply Fin.ext
    match a with
    | ⟨0, _⟩ => exact h0.symm
    | ⟨1, _⟩ => exact h1.symm
    | ⟨2, _⟩ => rfl
    | ⟨3, _⟩ => rfl
  · intro p _; rfl
  · intro i hi
    have hj := (Finset.mem_filter.1 hi).2
    have h0 : (i 0).val = b.val := by
      rw [← h.drop_apply_val_of_eq i 0 0, hj]
    have h1 : (i 1).val = ch.val := by
      rw [← h.drop_apply_val_of_eq i 1 1, hj]
    congr 1
    funext a
    apply Fin.ext
    match a with
    | ⟨0, _⟩ => exact h0
    | ⟨1, _⟩ => exact h1
    | ⟨2, _⟩ => rfl
    | ⟨3, _⟩ => rfl

/-- The same for a [4, 1, 256, 256] array. -/
theorem sum_filter_drop_mask (h : S4x1x256x256.ReducesTo [2, 3] S4x1) (x : S4x1x256x256.Idx → EReal)
    (b : Fin 4) (u : Fin 1) :
    ∑ i ∈ Finset.univ.filter (fun i => h.drop i = ix2 b u), x i
      = ∑ p : Fin 256 × Fin 256, x (ix4 b u p.1 p.2) := by
  refine Finset.sum_nbij' (fun i => ((⟨(i 2).val, (i 2).isLt⟩ : Fin 256), (⟨(i 3).val, (i 3).isLt⟩ : Fin 256)))
    (fun p => ix4 b u p.1 p.2) ?_ ?_ ?_ ?_ ?_
  · intro i _; exact Finset.mem_univ _
  · intro p _
    refine Finset.mem_filter.2 ⟨Finset.mem_univ _, ?_⟩
    funext a
    apply Fin.ext
    match a with
    | ⟨0, _⟩ => exact h.drop_apply_val_of_eq (ix4 b u p.1 p.2) 0 0
    | ⟨1, _⟩ => exact h.drop_apply_val_of_eq (ix4 b u p.1 p.2) 1 1
  · intro i hi
    have hj := (Finset.mem_filter.1 hi).2
    have h0 : (i 0).val = b.val := by
      rw [← h.drop_apply_val_of_eq i 0 0, hj]
    have h1 : (i 1).val = u.val := by
      rw [← h.drop_apply_val_of_eq i 1 1, hj]
    funext a
    apply Fin.ext
    match a with
    | ⟨0, _⟩ => exact h0.symm
    | ⟨1, _⟩ => exact h1.symm
    | ⟨2, _⟩ => rfl
    | ⟨3, _⟩ => rfl
  · intro p _; rfl
  · intro i hi
    have hj := (Finset.mem_filter.1 hi).2
    have h0 : (i 0).val = b.val := by
      rw [← h.drop_apply_val_of_eq i 0 0, hj]
    have h1 : (i 1).val = u.val := by
      rw [← h.drop_apply_val_of_eq i 1 1, hj]
    congr 1
    funext a
    apply Fin.ext
    match a with
    | ⟨0, _⟩ => exact h0
    | ⟨1, _⟩ => exact h1
    | ⟨2, _⟩ => rfl
    | ⟨3, _⟩ => rfl

/-! ## The layout operations' source indices at an index given by coordinates -/

theorem idx4_ix (b : Fin 4) (ch r c : Fin 256) : idx_main_v4 (ix4 b ch r c) = ix4 b (0 : Fin 1) r c := by
  funext a; match a with | ⟨0, _⟩ => rfl | ⟨1, _⟩ => rfl | ⟨2, _⟩ => rfl | ⟨3, _⟩ => rfl

theorem idx13_ix (b : Fin 4) (ch r c : Fin 256) : idx_main_v13 (ix4 b ch r c) = ix4 b (0 : Fin 1) r c := by
  funext a; match a with | ⟨0, _⟩ => rfl | ⟨1, _⟩ => rfl | ⟨2, _⟩ => rfl | ⟨3, _⟩ => rfl

theorem idx7_ix (b : Fin 4) (ch : Fin 256) : idx_main_v7 (ix2 b ch) = ix2 b (0 : Fin 1) := by
  funext a; match a with | ⟨0, _⟩ => rfl | ⟨1, _⟩ => rfl

theorem idx18_ix (b : Fin 4) (ch : Fin 256) : idx_main_v18 (ix2 b ch) = ix2 b (0 : Fin 1) := by
  funext a; match a with | ⟨0, _⟩ => rfl | ⟨1, _⟩ => rfl

theorem idx9_ix (b : Fin 4) (ch : Fin 256) (u v : Fin 1) : idx_main_v9 (ix4 b ch u v) = ix2 b ch := by
  funext a; match a with | ⟨0, _⟩ => rfl | ⟨1, _⟩ => rfl

theorem idx21_ix (b : Fin 4) (ch : Fin 256) (u v : Fin 1) : idx_main_v21 (ix4 b ch u v) = ix2 b ch := by
  funext a; match a with | ⟨0, _⟩ => rfl | ⟨1, _⟩ => rfl

theorem idx10_ix (b : Fin 4) (ch r c : Fin 256) : idx_main_v10 (ix4 b ch r c) = ix4 b ch (0 : Fin 1) (0 : Fin 1) := by
  funext a; match a with | ⟨0, _⟩ => rfl | ⟨1, _⟩ => rfl | ⟨2, _⟩ => rfl | ⟨3, _⟩ => rfl

theorem idx24_ix (b : Fin 4) (ch : Fin 256) (u v : Fin 1) :
    idx_main_v24 (ix4 b ch u v) = ix4 (0 : Fin 1) ch (0 : Fin 1) (0 : Fin 1) := by
  funext a; match a with | ⟨0, _⟩ => rfl | ⟨1, _⟩ => rfl | ⟨2, _⟩ => rfl | ⟨3, _⟩ => rfl

/-! ## The stages -/

section
variable (x0 : (⟨S4x256x256x256, .f32⟩ : BufTy).Contents (Elt Ideal))
  (x1 : (⟨S4x1x256x256, .f32⟩ : BufTy).Contents (Elt Ideal))
  (x2 : (⟨S1x256x1x1, .f32⟩ : BufTy).Contents (Elt Ideal))

/-- The comparison "at most one half", converted to a float, is the weight of the specification. -/
theorem v2_apply (i : S4x1x256x256.Idx) : val_main_v2 (F := Ideal) x1 i = keep (x1 i) := by
  rw [val_main_v2_apply, val_main_v1_apply, val_main_v0_apply, val_main_cst_apply]
  show (((Ideal.cmp .ole (x1 i) (Ideal.ofBits .f32 0x3F000000#32)).toNat : ℝ) : EReal) = keep (x1 i)
  unfold keep
  by_cases hle : x1 i ≤ Ideal.ofBits .f32 0x3F000000#32
  · rw [if_pos hle]; simp [Ideal.cmp, hle]
  · rw [if_neg hle]; simp [Ideal.cmp, hle]

/-- The count of kept pixels. -/
theorem v3_apply (b : Fin 4) (u : Fin 1) : val_main_v3 (F := Ideal) x1 (ix2 b u) = cnt x1 b := by
  obtain rfl : u = 0 := Subsingleton.elim _ _
  unfold val_main_v3
  rw [hostReduceAdd_apply]
  unfold Ideal.hostReduceAdd
  rw [sum_filter_drop_mask, val_main_cst_0_apply, Ideal.ofBits_def, Ideal.ofBits_zero_f32, zero_add]
  unfold cnt kept
  simp only [v2_apply]

end

section
variable (x0 : (⟨S4x256x256x256, .f32⟩ : BufTy).Contents (Elt Ideal))
  (x1 : (⟨S4x1x256x256, .f32⟩ : BufTy).Contents (Elt Ideal))
  (x2 : (⟨S1x256x1x1, .f32⟩ : BufTy).Contents (Elt Ideal))

/-- The sum of the kept features. -/
theorem v6_apply (b : Fin 4) (ch : Fin 256) : val_main_v6 (F := Ideal) x0 x1 (ix2 b ch) = tot x0 x1 b ch := by
  unfold val_main_v6
  rw [hostReduceAdd_apply]
  unfold Ideal.hostReduceAdd
  rw [sum_filter_drop_feat, val_main_cst_1_apply, Ideal.ofBits_def, Ideal.ofBits_zero_f32, zero_add]
  unfold tot feat kept
  refine Finset.sum_congr rfl fun p _ => ?_
  rw [val_main_v5_apply, val_main_v4_apply, idx4_ix, v2_apply, Ideal.mulf_def]

/-- The count, copied along the channels. -/
theorem v7_apply (b : Fin 4) (ch : Fin 256) : val_main_v7 (F := Ideal) x1 (ix2 b ch) = cnt x1 b := by
  rw [val_main_v7_apply, idx7_ix, v3_apply]

/-- The mean of the kept features. -/
theorem v8_apply (b : Fin 4) (ch : Fin 256) : val_main_v8 (F := Ideal) x0 x1 (ix2 b ch) = mean x0 x1 b ch := by
  rw [val_main_v8_apply, v6_apply, v7_apply, Ideal.hostDivf_def]
  rfl

/-- The mean, copied to every pixel. -/
theorem v10_apply (b : Fin 4) (ch r c : Fin 256) :
    val_main_v10 (F := Ideal) x0 x1 (ix4 b ch r c) = mean x0 x1 b ch := by
  rw [val_main_v10_apply, idx10_ix, val_main_v9_apply, idx9_ix, v8_apply]

/-- The weighted squared distance from the mean at a pixel. -/
theorem v14_apply (b : Fin 4) (ch r c : Fin 256) :
    val_main_v14 (F := Ideal) x0 x1 (ix4 b ch r c)
      = ((x0 (ix4 b ch r c) - mean x0 x1 b ch) * (x0 (ix4 b ch r c) - mean x0 x1 b ch))
          * keep (x1 (ix4 b (0 : Fin 1) r c)) := by
  rw [val_main_v14_apply, val_main_v12_apply, val_main_v11_apply, val_main_v13_apply, idx13_ix, v2_apply, v10_apply,
    Ideal.mulf_def, Ideal.mulf_def, Ideal.subf_def]

/-- The two-pass sum of squared deviations. -/
theorem v15_apply (b : Fin 4) (ch : Fin 256) : val_main_v15 (F := Ideal) x0 x1 (ix2 b ch) = devTwo x0 x1 b ch := by
  unfold val_main_v15
  rw [hostReduceAdd_apply]
  unfold Ideal.hostReduceAdd
  rw [sum_filter_drop_feat, val_main_cst_2_apply, Ideal.ofBits_def, Ideal.ofBits_zero_f32, zero_add]
  unfold devTwo feat kept
  refine Finset.sum_congr rfl fun p _ => ?_
  rw [v14_apply]

/-- The deviations over the count less one. -/
theorem v19_apply (b : Fin 4) (ch : Fin 256) :
    val_main_v19 (F := Ideal) x0 x1 (ix2 b ch)
      = Ideal.div (devTwo x0 x1 b ch) (cnt x1 b - Ideal.ofBits .f32 0x3F800000#32) := by
  rw [val_main_v19_apply, v15_apply, val_main_v18_apply, idx18_ix, val_main_v17_apply, v3_apply, val_main_v16_apply,
    val_main_cst_3_apply, Ideal.hostDivf_def, Ideal.subf_def, Ideal.ofBits_def]

/-- The standard deviation. -/
theorem v21_apply (b : Fin 4) (ch : Fin 256) (u v : Fin 1) :
    val_main_v21 (F := Ideal) x0 x1 (ix4 b ch u v) = stdOf x1 b (devTwo x0 x1 b ch) := by
  rw [val_main_v21_apply, idx21_ix, val_main_v20_apply, v19_apply, Ideal.hostUnary_sqrt_def]
  rfl

/-- The channel's floor. -/
theorem v24_apply (b : Fin 4) (ch : Fin 256) (u v : Fin 1) :
    val_main_v24 (F := Ideal) x2 (ix4 b ch u v) = lowest x2 ch := by
  rw [val_main_v24_apply, idx24_ix, val_main_v23_apply, val_main_v22_apply, val_main_cst_4_apply, Ideal.addf_def,
    Ideal.ofBits_def]
  rfl

/-- The result at (sample, channel). -/
theorem v25_apply (b : Fin 4) (ch : Fin 256) (u v : Fin 1) :
    val_main_v25 (F := Ideal) x0 x1 x2 (ix4 b ch u v) = twoPassAt x0 x1 x2 b ch := by
  rw [val_main_v25_apply, v21_apply, v24_apply, Ideal.maximumf_def]
  rfl

end

end Cert.MaskedStd.RefValue

namespace Cert.MaskedStd

/-- The reference's result array is the two-pass form of the specification. -/
theorem reference_eq (x0 : (⟨Cert.ReferenceIdeal.S4x256x256x256, .f32⟩ : BufTy).Contents (Elt Ideal))
    (x1 : (⟨Cert.ReferenceIdeal.S4x1x256x256, .f32⟩ : BufTy).Contents (Elt Ideal))
    (x2 : (⟨Cert.ReferenceIdeal.S1x256x1x1, .f32⟩ : BufTy).Contents (Elt Ideal)) :
    Cert.ReferenceIdeal.Read.val_main_v25 (F := Ideal) x0 x1 x2 = Cert.MaskedStd.twoPass x0 x1 x2 := by
  funext i
  obtain ⟨b, ch, u, v, rfl⟩ : ∃ (b : Fin 4) (ch : Fin 256) (u v : Fin 1), i = ix4 b ch u v :=
    ⟨_, _, _, _, eq_ix4 i⟩
  rw [RefValue.v25_apply]
  rfl

end Cert.MaskedStd

end
-- ==== Proof.VarianceLaw.lean ====
import proofs.«104190_j11476152615311_2_alg».proof.Proof.Spec
import Mathlib.Data.EReal.Basic
import Mathlib.Algebra.BigOperators.Ring.Finset
import Mathlib.Tactic

/-!
# The masked-variance identity on the extended reals

For real features `a i` and weights `k i ∈ {0, 1}`, with `N = ∑ k`, `S = ∑ a·k`, `Q = ∑ a·(a·k)` and
`μ = S / N` (the ideal division, whatever its value when `N = 0`),

  ∑ ((a - μ)·(a - μ))·k = Q - (N·μ)·μ.

When `N = 0` every weight is zero and both sides are `0`. Otherwise `μ` is a real number, every term is the
coercion of a real term, and the identity is the usual expansion of the square together with `S = N·μ`.
-/

noncomputable section

open Idealize.ShloMosaic Idealize.ShloMosaic.ValueIdx

namespace Cert.MaskedStd

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The identity for real, nonnegative weights. -/
theorem masked_dev_real {ι : Type*} [Fintype ι] (a k : ι → ℝ) (hk : ∀ i, 0 ≤ k i) (μ : EReal)
    (hμ : μ = Ideal.div (∑ i, (a i : EReal) * (k i : EReal)) (∑ i, (k i : EReal))) :
    (∑ i, (((a i : EReal) - μ) * ((a i : EReal) - μ)) * (k i : EReal))
      = (∑ i, (a i : EReal) * ((a i : EReal) * (k i : EReal))) - ((∑ i, (k i : EReal)) * μ) * μ := by
  classical
  have hN : (∑ i, (k i : EReal)) = ((∑ i, k i : ℝ) : EReal) := (coe_finset_sum _ _).symm
  have hS : (∑ i, (a i : EReal) * (k i : EReal)) = ((∑ i, a i * k i : ℝ) : EReal) := by
    rw [coe_finset_sum]; simp only [EReal.coe_mul]
  have hQ : (∑ i, (a i : EReal) * ((a i : EReal) * (k i : EReal)))
      = ((∑ i, a i * (a i * k i) : ℝ) : EReal) := by
    rw [coe_finset_sum]; simp only [EReal.coe_mul]
  by_cases h0 : (∑ i, k i) = 0
  · -- no pixel is kept: every weight is zero and both sides vanish
    have hz : ∀ i, k i = 0 := fun i =>
      (Finset.sum_eq_zero_iff_of_nonneg (fun i _ => hk i)).1 h0 i (Finset.mem_univ i)
    simp only [hz, EReal.coe_zero, mul_zero, Finset.sum_const_zero, zero_mul, sub_zero]
  · -- the mean is a real number
    obtain ⟨n, hn⟩ : ∃ n : ℝ, n = ∑ i, k i := ⟨_, rfl⟩
    obtain ⟨s, hs⟩ : ∃ s : ℝ, s = ∑ i, a i * k i := ⟨_, rfl⟩
    rw [← hn] at h0 hN
    rw [← hs] at hS
    have hμ' : μ = ((s * (1 / n) : ℝ) : EReal) := by
      rw [hμ, hS, hN, Ideal.div_coe h0, ← EReal.coe_mul]
    obtain ⟨m, hm⟩ : ∃ m : ℝ, m = s * (1 / n) := ⟨_, rfl⟩
    rw [← hm] at hμ'
    have hterm : ∀ i, (((a i : EReal) - (m : EReal)) * ((a i : EReal) - (m : EReal))) * (k i : EReal)
        = (((a i - m) * (a i - m) * k i : ℝ) : EReal) := by
      intro i; rw [EReal.coe_mul, EReal.coe_mul, EReal.coe_sub]
    rw [hμ', hQ, hN]
    simp only [hterm]
    rw [← coe_finset_sum, ← EReal.coe_mul, ← EReal.coe_mul, ← EReal.coe_sub, EReal.coe_eq_coe_iff]
    have hsm : s = n * m := by rw [hm]; field_simp
    have hexp : ∀ i, (a i - m) * (a i - m) * k i
        = a i * (a i * k i) - 2 * m * (a i * k i) + m * m * k i := fun i => by ring
    simp only [hexp]
    rw [Finset.sum_add_distrib, Finset.sum_sub_distrib, ← Finset.mul_sum, ← Finset.mul_sum, ← hs, ← hn, hsm]
    ring

/-- The identity for extended-real weights that are each zero or one. -/
theorem masked_dev {ι : Type*} [Fintype ι] (a : ι → ℝ) (k : ι → EReal) (hk : ∀ i, k i = 0 ∨ k i = 1)
    (μ : EReal) (hμ : μ = Ideal.div (∑ i, (a i : EReal) * k i) (∑ i, k i)) :
    (∑ i, (((a i : EReal) - μ) * ((a i : EReal) - μ)) * k i)
      = (∑ i, (a i : EReal) * ((a i : EReal) * k i)) - ((∑ i, k i) * μ) * μ := by
  classical
  obtain ⟨k', rfl, hk'⟩ : ∃ k' : ι → ℝ, k = (fun i => (k' i : EReal)) ∧ ∀ i, 0 ≤ k' i := by
    refine ⟨fun i => if k i = 1 then 1 else 0, funext fun i => ?_, fun i => ?_⟩
    · rcases hk i with h | h <;> simp [h]
    · dsimp only; split <;> norm_num
  exact masked_dev_real a k' hk' μ hμ

/-- The two-pass sum of squared deviations equals the one-pass form, for a feature array of reals. -/
theorem devTwo_eq_devOne (A : SA.Idx → EReal) (M : SM.Idx → EReal) (b : Fin 4) (ch : Fin 256)
    (hA : ∀ i, ∃ r : ℝ, A i = (r : EReal)) : devTwo A M b ch = devOne A M b ch := by
  choose r hr using hA
  have h := masked_dev (fun p : Fin 256 × Fin 256 => r (ix4 b ch p.1 p.2)) (fun p => kept M b p)
    (fun p => keep_eq_zero_or_one _) (mean A M b ch)
    (by unfold mean tot cnt feat; simp only [hr])
  unfold devTwo devOne totSq cnt feat
  simp only [hr]
  exact h

end Cert.MaskedStd

end
-- ==== Proof.PassesAgree.lean ====
import proofs.«104190_j11476152615311_2_alg».proof.Proof.Spec
import proofs.«104190_j11476152615311_2_alg».proof.Proof.VarianceLaw

/-!
# The two forms of the result agree on real features

The one-pass and two-pass results differ only in how the sum of squared deviations is written; for a feature array
of real numbers the two sums are equal, so the results are equal at every (sample, channel).
-/

noncomputable section

open Idealize.ShloMosaic Idealize.ShloMosaic.ValueIdx

namespace Cert.MaskedStd

/-- For real features the two-pass result array is the one-pass result array. -/
theorem twoPass_eq_onePass (A : SA.Idx → EReal) (M : SM.Idx → EReal) (T : ST.Idx → EReal)
    (hA : ∀ i, ∃ r : ℝ, A i = (r : EReal)) : twoPass A M T = onePass A M T := by
  funext i
  unfold twoPass onePass twoPassAt onePassAt
  rw [devTwo_eq_devOne A M _ _ hA]

end Cert.MaskedStd

end
-- ==== Proof.Finite.lean ====
import proofs.«104190_j11476152615311_2_alg».proof.Defs
import proofs.«104190_j11476152615311_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

/-!
# The precondition makes every feature a real number

The precondition states that every entry of each argument array has an absolute value below +∞. An extended real
whose absolute value is below +∞ is neither +∞ nor -∞, so it is a real number. Only the feature array's entries
are needed.
-/

noncomputable section

open Idealize.ShloMosaic Idealize.ShloMosaic.ValueIdx Idealize.SL.Sem

namespace Cert.MaskedStd

/-- The scalar shape has one index. -/
instance subsingleton_scalar_idx : Subsingleton Cert.Pre_finite_inputs.S_.Idx :=
  ⟨fun a b => funext fun d => d.elim0⟩

/-- An extended real whose absolute value compares below the word of +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4x256x256x256.Idx) :
    ∃ r : ℝ, m ((c.tc : Thread Cert.KernelIdeal.nD Cert.KernelIdeal.τ).loc Cert.KernelIdeal.main_arg0) i = (r : EReal) := by
  have h0 := congrFun (h c) ValueIdx.ix0
  generalize m ((c.tc : Thread Cert.KernelIdeal.nD Cert.KernelIdeal.τ).loc Cert.KernelIdeal.main_arg0) = a0 at h0 ⊢
  generalize m ((c.tc : Thread Cert.KernelIdeal.nD Cert.KernelIdeal.τ).loc Cert.KernelIdeal.main_arg1) = a1 at h0
  generalize m ((c.tc : Thread Cert.KernelIdeal.nD Cert.KernelIdeal.τ).loc Cert.KernelIdeal.main_arg2) = a2 at h0
  dsimp only [Cert.Pre_finite_inputs.fn] at h0
  obtain ⟨h01, -⟩ := IntOp.andi_eq_one.1 h0
  obtain ⟨hA, -⟩ := IntOp.andi_eq_one.1 h01
  have hx := Host.reduce_andi_all _ _ _ _ _ hA i
  rw [ValueIdx.cmpf_apply, broadcastInDim_scalar_apply, constant_apply] at hx
  exact real_of_abs_lt_inf (a0 i) hx

end Cert.MaskedStd

end
-- ==== Proof.lean ====
/-
  The masked standard deviation, one pass against two.

  For a feature array [4, 256, 256, 256], a mask [4, 1, 256, 256] and a per-channel floor [1, 256, 1, 1], a pixel of a
  sample is kept when its mask value is at most one half. Per (sample, channel) both programs return
  max (√(dev / (n - 1))) (10⁻⁶ + floor), with `n` the number of kept pixels, `μ = s / n` the mean of the kept
  features and `dev` the sum of their squared deviations from `μ`.

  The kernel walks each sample in sixteen row tiles, accumulating `n`, the sum `s` and the sum of squares `ss`,
  and at the last tile forms `dev = ss - (n·μ)·μ`; the reference forms `dev = ∑ ((a - μ)·(a - μ))·k` over the
  whole sample. For real features the two agree: when `n ≠ 0`, expanding the square gives
  `ss - 2·μ·s + μ²·n` and `s = n·μ`; when `n = 0` every weight is zero and both are zero, whatever `μ` is.
  The features are real because the precondition makes every input finite; on the extended reals the
  expansion of the square would fail at an infinite feature, which is the one place the precondition is used.
  The sums themselves are regrouped freely (addition of extended reals is commutative and associative): row by
  row inside a tile, tile by tile across the grid, against one sum over all 256 × 256 pixels.

  The idealization rewrote nothing, so the kernel as printed and its idealization are the same text read at two
  instances, and the three programs' frames are the generated frame runs and the reference's generated run.
-/
import proofs.«104190_j11476152615311_2_alg».proof.Defs
import proofs.«104190_j11476152615311_2_alg».proof.Proof.Gen.Kernel
import proofs.«104190_j11476152615311_2_alg».proof.Proof.Gen.Kernel.Skeleton
import proofs.«104190_j11476152615311_2_alg».proof.Proof.Gen.Kernel.Launch
import proofs.«104190_j11476152615311_2_alg».proof.Proof.Gen.Kernel.Points
import proofs.«104190_j11476152615311_2_alg».proof.Proof.Gen.Kernel.Frame
import proofs.«104190_j11476152615311_2_alg».proof.Proof.Gen.KernelIdeal
import proofs.«104190_j11476152615311_2_alg».proof.Proof.Gen.KernelIdeal.Skeleton
import proofs.«104190_j11476152615311_2_alg».proof.Proof.Gen.KernelIdeal.Launch
import proofs.«104190_j11476152615311_2_alg».proof.Proof.Gen.KernelIdeal.Points
import proofs.«104190_j11476152615311_2_alg».proof.Proof.Gen.KernelIdeal.Frame
import proofs.«104190_j11476152615311_2_alg».proof.Proof.Gen.ReferenceIdeal
import proofs.«104190_j11476152615311_2_alg».proof.Proof.Gen.ReferenceIdeal.Run
import proofs.«104190_j11476152615311_2_alg».proof.Proof.Gen.ReferenceIdeal.Read
import proofs.«104190_j11476152615311_2_alg».proof.Proof.Gen.Pre_finite_inputs
import proofs.«104190_j11476152615311_2_alg».proof.Proof.KernelValue
import proofs.«104190_j11476152615311_2_alg».proof.Proof.RefValue
import proofs.«104190_j11476152615311_2_alg».proof.Proof.PassesAgree
import proofs.«104190_j11476152615311_2_alg».proof.Proof.Finite
import Idealize.ShloMosaic.Adequacy
import Idealize.ShloMosaic.Init

noncomputable section

namespace Cert.Proof

open Idealize.ShloMosaic Idealize.SL.Sem

/-- The kernel as printed runs and keeps its arguments: the generated frame run. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the one-pass result of the kernel's arguments: the kernel by its run; the reference at
    the two-pass result of its own arguments, which agree with the kernel's, and the two passes agree because the
    features are real. -/
theorem algebraic : Cert.algebraic_KernelIdeal_ReferenceIdeal := by
  intro m ρ m' ρ' hpre hagree
  refine ⟨fun c => Cert.MaskedStd.onePass
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v25_eq, Cert.MaskedStd.reference_eq]
  exact Cert.MaskedStd.twoPass_eq_onePass _ _ _ (Cert.MaskedStd.finite_of_pre m hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
